-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S8192x1 : Shape := ⟨2, ![8192, 1]⟩
abbrev S512x512 : Shape := ⟨2, ![512, 512]⟩
abbrev S512x1 : Shape := ⟨2, ![512, 1]⟩
abbrev S1x512 : Shape := ⟨2, ![1, 512]⟩
abbrev S512 : Shape := ⟨1, ![512]⟩
abbrev S8192 : Shape := ⟨1, ![8192]⟩
abbrev S_ : Shape := ⟨0, ![]⟩
abbrev S1x8192 : Shape := ⟨2, ![1, 8192]⟩

abbrev nBuf : Space → Nat
  | .hbm => 17
  | .vmem => 17
  | .smem => 0
  | _ => 0

abbrev bufTy : (tb : Table) → Fin (tcTables nBuf tb) → BufTy
  | .hbm, ⟨0, _⟩ => ⟨S8192x8192, .f32⟩
  | .hbm, ⟨1, _⟩ => ⟨S8192x1, .f32⟩
  | .hbm, ⟨2, _⟩ => ⟨S8192, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .i1⟩
  | .hbm, ⟨10, _⟩ => ⟨S_, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S1x8192, .f32⟩
  | .hbm, ⟨16, _⟩ => ⟨S8192x8192, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x1, .f32⟩
  | .local _ .vmem, ⟨12, _⟩ => ⟨S512x1, .f32⟩
  | .local _ .vmem, ⟨13, _⟩ => ⟨S1x512, .f32⟩
  | .local _ .vmem, ⟨14, _⟩ => ⟨S1x512, .f32⟩
  | .local _ .vmem, ⟨15, _⟩ => ⟨S512x512, .f32⟩
  | .local _ .vmem, ⟨16, _⟩ => ⟨S512x512, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v4 : Ref sig .tc := ⟨.hbm, 9, rfl⟩
abbrev main_cst_0 : Ref sig .tc := ⟨.hbm, 10, rfl⟩
abbrev main_call1_v0 : Ref sig .tc := ⟨.hbm, 11, rfl⟩
abbrev main_call1_v1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_11 : BitVec 32 := 0#32
  let v34 : BitVec 1 := Scalar.cmpi .ne v33 c0_i32_11
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  iota_S512x1_d0_w32 : S512x1.Iotas .tc 32 [0]
  iota_S1x512_d1_w32 : S1x512.Iotas .tc 32 [1]
  broadcasts_S512x1_S512x512 : S512x1.Broadcasts S512x512
  broadcasts_S1x512_S512x512 : S1x512.Broadcasts S512x512
  natLt_1_32 : 1 < 32
  reduces_S512x512_S512 : S512x512.Reduces [1] S512
  shapeCasts_S512_S512x1 : S512.ShapeCasts S512x1
  shapeCasts_S8192x1_S8192 : S8192x1.ShapeCasts S8192
  bcast_S_S8192 : S_.BroadcastsInDim S8192 (![] : Fin 0 → Fin S8192.rank)
  shapeCasts_S8192_S8192x1 : S8192.ShapeCasts S8192x1
  shapeCasts_S8192_S1x8192 : S8192.ShapeCasts S1x8192
  inb_S1x512_S1x512_0_0 : ∀ a, (![0, 0] : Fin 2 → Nat) a + S1x512.size a ≤ S1x512.size a
  h_S1x512 : 0 < S1x512.numel
  shapeCasts_S1x512_S1x512 : S1x512.ShapeCasts S1x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x8192.size a
  hwx0_0 : ∀ i : grid0.Coords, EltTy.bits .f32 = 32 ∨ (Rect.block (s := S8192x8192) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x8192.size a
  hwx0_1 : ∀ i : grid0.Coords, EltTy.bits .f32 = 32 ∨ (Rect.block (s := S8192x8192) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x8192.size a
  hwx1_0 : ∀ i : grid1.Coords, EltTy.bits .f32 = 32 ∨ (Rect.block (s := S8192x8192) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S8192x8192.size a
  hwx1_1 : ∀ i : grid1.Coords, EltTy.bits .f32 = 32 ∨ (Rect.block (s := S8192x8192) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x8192.size a
  hwx1_3 : ∀ i : grid1.Coords, EltTy.bits .f32 = 32 ∨ (Rect.block (s := S1x8192) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S8192x8192.size a
  hwx1_4 : ∀ i : grid1.Coords, EltTy.bits .f32 = 32 ∨ (Rect.block (s := S8192x8192) S512x512.size (cc1_transform_4 i) (hinb1_4 i)).WholeWords (EltTy.packing .f32)

variable [Facts₀]

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S512x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 36
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .i32⟩
  | .hbm, ⟨10, _⟩ => ⟨S8192x8192, .i32⟩
  | .hbm, ⟨11, _⟩ => ⟨S_, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .i1⟩
  | .hbm, ⟨26, _⟩ => ⟨S_, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192x1, .f32⟩
  | .hbm, ⟨31, _⟩ => ⟨S8192x8192, .f32⟩
  | .hbm, ⟨32, _⟩ => ⟨S8192x8192, .f32⟩
  | .hbm, ⟨33, _⟩ => ⟨S1x8192, .f32⟩
  | .hbm, ⟨34, _⟩ => ⟨S8192x8192, .f32⟩
  | .hbm, ⟨35, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_v15 : Ref sig .tc := ⟨.hbm, 25, rfl⟩
abbrev main_cst_2 : Ref sig .tc := ⟨.hbm, 26, rfl⟩
abbrev main_call2_v0 : Ref sig .tc := ⟨.hbm, 27, rfl⟩
abbrev main_call2_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  transposes_S8192x8192_S8192x8192_1_0 : S8192x8192.Transposes [1, 0] S8192x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)

variable [Facts₀]

class Facts : Prop extends Facts₀ where

variable [Facts]
-- ==== Proof.K.Launch.lean ====
/-
  The two kernel regions and the five host stretches of the program's entry function, composed.

  Between two items of the entry function core c holds every unscoped buffer whole, at a valuation that is
  the launch memory, then what each host stretch computes, then what a region leaves in its output array.
  Each region reads the one argument array through two windows; the buffer's full share is dealt between
  them, the left half to window 0 and the right half to window 1, and joined back when the region is left.
  The regions' proof data are abstract here: what is asked of them is collected in Reg0Data / Reg1Data.
-/
import proofs.«132871_j43860206027551_1_alg».proof.Proof.Gen.Kernel.Regions
import Idealize.ShloMosaic.Lib.Pipeline.Frame
import Idealize.ShloMosaic.Lib.Pipeline.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The distinct buffers behind each region's windows -/

theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v0) ↦{fullShare} V main_v0)) := by
  unfold Pipeline.arrBufs
  exact bigSep_eq_bigSepL_of_eq [main_arg0, main_v0] (by decide) (by decide) _

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_v6) ↦{fullShare} V main_v6)
          ∗ (((c : Thread nD τ).loc main_v7) ↦{fullShare} V main_v7) ∗ (((c : Thread nD τ).loc main_v8) ↦{fullShare} V main_v8)) := by
  unfold Pipeline.arrBufs
  exact bigSep_eq_bigSepL_of_eq [main_arg0, main_v6, main_v7, main_v8] (by decide) (by decide) _

/-! ## A region's arrays, window by window, at the shares the windows hold -/

theorem arrays0_eq (c : Dev nD) (dat : Dat τ (Elt F) Unit ℕ (UR sig nD τ) ℕ cfg0 c)
    (hq0 : dat.q 0 = fullShare.left) (hq1 : dat.q 1 = fullShare.right)
    (G : (w : Fin cfg0.W) → Buf (Elt F) ((cfg0.win w).arr.view.loc (c : Thread nD τ))) :
    (dat.arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  have s0 : dat.share 0 = fullShare.left := by unfold Dat.share; exact hq0
  have s1 : dat.share 1 = fullShare.right := by unfold Dat.share; exact hq1
  have s2 : dat.share 2 = fullShare := by unfold Dat.share; rfl
  unfold Dat.arrays
  rw [Gen.bigSep_W0, s0, s1, s2, (Gen.arr_whole0 0).set_eq_univ, (Gen.arr_whole0 2).set_eq_univ]

theorem arrays1_eq (c : Dev nD) (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (G : (w : Fin cfg1.W) → Buf (Elt F) ((cfg1.win w).arr.view.loc (c : Thread nD τ))) :
    (dat.arrays G : sProp 𝕄)
      = iprop((((c : Thread nD τ).loc main_arg0) ↦{fullShare.left} G 0) ∗ (((c : Thread nD τ).loc main_arg0) ↦{fullShare.right} G 1)
          ∗ (((c : Thread nD τ).loc main_v6) ↦{fullShare} G 2) ∗ (((c : Thread nD τ).loc main_v7) ↦{fullShare} G 3)
          ∗ (((c : Thread nD τ).loc main_v8) ↦{fullShare} G 4)) := by
  have s0 : dat.share 0 = fullShare.left := by unfold Dat.share; exact hq0
  have s1 : dat.share 1 = fullShare.right := by unfold Dat.share; exact hq1
  have s2 : dat.share 2 = fullShare := by unfold Dat.share; exact hq2
  have s3 : dat.share 3 = fullShare := by unfold Dat.share; exact hq3
  have s4 : dat.share 4 = fullShare := by unfold Dat.share; rfl
  unfold Dat.arrays
  rw [Gen.bigSep_W1, s0, s1, s2, s3, s4, (Gen.arr_whole1 0).set_eq_univ, (Gen.arr_whole1 2).set_eq_univ,
    (Gen.arr_whole1 3).set_eq_univ, (Gen.arr_whole1 4).set_eq_univ]

/-! ## Entering and leaving a region: the unscoped buffers against the region's arrays and the rest -/

/-- Region 0 entered: the core's unscoped buffers at V are the region's arrays at the proof data's entry contents,
    the argument array's full share dealt into its halves, and the rest. -/
theorem entry0 (c : Dev nD) (dat : Dat τ (Elt F) Unit ℕ (UR sig nD τ) ℕ cfg0 c)
    (V : (b : Ref sig .tc) → Buf (Elt F) ((c : Thread nD τ).loc b))
    (hA : ∀ w, dat.A w = V (Pipeline.arrRef spec0 w)) (hq0 : dat.q 0 = fullShare.left) (hq1 : dat.q 1 = fullShare.right) :
    (unscopedBufs (Ix := Unit) (Name := ℕ) (U := UR sig nD τ) (Lvl := ℕ) c V : sProp 𝕄)
      ⊢ iprop(dat.arrays (dat.arrAt · 0) ∗ Pipeline.unscopedRest (Ix := Unit) (Name := ℕ) (U := UR sig nD τ) (Lvl := ℕ) spec0 c V) := by
  rw [show (unscopedBufs (Ix := Unit) (Name := ℕ) (U := UR sig nD τ) (Lvl := ℕ) c V : sProp 𝕄)
      = iprop(Pipeline.arrBufs spec0 c V ∗ Pipeline.unscopedRest spec0 c V) from Pipeline.unscopedBufs_split₀ cfgs 0 Gen.winFacts₀0.arr_unscoped c V, arrBufs0_eq, arrays0_eq c dat hq0 hq1,
    show dat.arrAt 0 0 = V main_arg0 from hA 0, show dat.arrAt 1 0 = V main_arg0 from hA 1, show dat.arrAt 2 0 = V main_v0 from hA 2]
  iintro ⟨⟨Ha, Ho⟩, Hr⟩
  ihave Ha2 := (pointsTo_share (PosShare.mem_left_op_right fullShare)).1 $$ Ha
  icases Ha2 with ⟨Hl, Hrt⟩
  isplitr [Hr]
  · isplitl [Hl]; · iexact Hl
    isplitl [Hrt]; · iexact Hrt
    iexact Ho
  · iexact Hr

/-- Region 0 left: its arrays at their final contents, the halves of the argument array joined back, and the rest
    at V are the core's unscoped buffers at any V' that has the output at what the region leaves and agrees with V
    elsewhere. -/
theorem exit0 (c : Dev nD) (dat : Dat τ (Elt F) Unit ℕ (UR sig nD τ) ℕ cfg0 c)
    (V V' : (b : Ref sig .tc) → Buf (Elt F) ((c : Thread nD τ).loc b))
    (hA : ∀ w, dat.A w = V (Pipeline.arrRef spec0 w)) (hq0 : dat.q 0 = fullShare.left) (hq1 : dat.q 1 = fullShare.right)
    (hout : V' main_v0 = dat.arrAt 2 cfg0.N) (hrest : ∀ b, b ≠ main_v0 → V' b = V b) :
    iprop(dat.arrays (dat.arrAt · cfg0.N) ∗ Pipeline.unscopedRest (Ix := Unit) (Name := ℕ) (U := UR sig nD τ) (Lvl := ℕ) spec0 c V)
      ⊢ (unscopedBufs (Ix := Unit) (Name := ℕ) (U := UR sig nD τ) (Lvl := ℕ) c V' : sProp 𝕄) := by
  have e0 : dat.arrAt 0 cfg0.N = V' main_arg0 := ((dat.arrAt_in 0 rfl _).trans (hA 0)).trans (hrest main_arg0 (by decide)).symm
  have e1 : dat.arrAt 1 cfg0.N = V' main_arg0 := ((dat.arrAt_in 1 rfl _).trans (hA 1)).trans (hrest main_arg0 (by decide)).symm
  have hr : (Pipeline.unscopedRest (Ix := Unit) (Name := ℕ) (U := UR sig nD τ) (Lvl := ℕ) spec0 c V : sProp 𝕄)
      = Pipeline.unscopedRest spec0 c V' := by
    unfold Pipeline.unscopedRest
    exact bigSep_congr fun b hb => by
      rw [hrest b fun e => (Finset.mem_sdiff.mp hb).2 (e ▸ Finset.mem_image.mpr ⟨2, Finset.mem_univ _, rfl⟩)]
  rw [show (unscopedBufs (Ix := Unit) (Name := ℕ) (U := UR sig nD τ) (Lvl := ℕ) c V' : sProp 𝕄)
      = iprop(Pipeline.arrBufs spec0 c V' ∗ Pipeline.unscopedRest spec0 c V') from Pipeline.unscopedBufs_split₀ cfgs 0 Gen.winFacts₀0.arr_unscoped c V', arrBufs0_eq, arrays0_eq c dat hq0 hq1, e0, e1, ← hout, hr]
  iintro ⟨⟨Hl, Hrt, Ho⟩, Hr⟩
  isplitr [Hr]
  · isplitr [Ho]
    · iapply (pointsTo_share (PosShare.mem_left_op_right fullShare)).2
      isplitl [Hl]; · iexact Hl
      iexact Hrt
    · iexact Ho
  · iexact Hr

/-- Region 1 entered. -/
theorem entry1 (c : Dev nD) (dat : Dat τ (Elt F) Unit ℕ (UR sig nD τ) ℕ cfg1 c)
    (V : (b : Ref sig .tc) → Buf (Elt F) ((c : Thread nD τ).loc b))
    (hA : ∀ w, dat.A w = V (Pipeline.arrRef spec1 w)) (hq0 : dat.q 0 = fullShare.left) (hq1 : dat.q 1 = fullShare.right)
    (hq2 : dat.q 2 = fullShare) (hq3 : dat.q 3 = fullShare) :
    (unscopedBufs (Ix := Unit) (Name := ℕ) (U := UR sig nD τ) (Lvl := ℕ) c V : sProp 𝕄)
      ⊢ iprop(dat.arrays (dat.arrAt · 0) ∗ Pipeline.unscopedRest (Ix := Unit) (Name := ℕ) (U := UR sig nD τ) (Lvl := ℕ) spec1 c V) := by
  rw [show (unscopedBufs (Ix := Unit) (Name := ℕ) (U := UR sig nD τ) (Lvl := ℕ) c V : sProp 𝕄)
      = iprop(Pipeline.arrBufs spec1 c V ∗ Pipeline.unscopedRest spec1 c V) from Pipeline.unscopedBufs_split₀ cfgs 1 Gen.winFacts₀1.arr_unscoped c V,
    arrBufs1_eq, arrays1_eq c dat hq0 hq1 hq2 hq3,
    show dat.arrAt 0 0 = V main_arg0 from hA 0, show dat.arrAt 1 0 = V main_arg0 from hA 1, show dat.arrAt 2 0 = V main_v6 from hA 2,
    show dat.arrAt 3 0 = V main_v7 from hA 3, show dat.arrAt 4 0 = V main_v8 from hA 4]
  iintro ⟨⟨Ha, Ho⟩, Hr⟩
  ihave Ha2 := (pointsTo_share (PosShare.mem_left_op_right fullShare)).1 $$ Ha
  icases Ha2 with ⟨Hl, Hrt⟩
  isplitr [Hr]
  · isplitl [Hl]; · iexact Hl
    isplitl [Hrt]; · iexact Hrt
    iexact Ho
  · iexact Hr

/-- Region 1 left. -/
theorem exit1 (c : Dev nD) (dat : Dat τ (Elt F) Unit ℕ (UR sig nD τ) ℕ cfg1 c)
    (V V' : (b : Ref sig .tc) → Buf (Elt F) ((c : Thread nD τ).loc b))
    (hA : ∀ w, dat.A w = V (Pipeline.arrRef spec1 w)) (hq0 : dat.q 0 = fullShare.left) (hq1 : dat.q 1 = fullShare.right)
    (hq2 : dat.q 2 = fullShare) (hq3 : dat.q 3 = fullShare)
    (hout : V' main_v8 = dat.arrAt 4 cfg1.N) (hrest : ∀ b, b ≠ main_v8 → V' b = V b) :
    iprop(dat.arrays (dat.arrAt · cfg1.N) ∗ Pipeline.unscopedRest (Ix := Unit) (Name := ℕ) (U := UR sig nD τ) (Lvl := ℕ) spec1 c V)
      ⊢ (unscopedBufs (Ix := Unit) (Name := ℕ) (U := UR sig nD τ) (Lvl := ℕ) c V' : sProp 𝕄) := by
  have e0 : dat.arrAt 0 cfg1.N = V' main_arg0 := ((dat.arrAt_in 0 rfl _).trans (hA 0)).trans (hrest main_arg0 (by decide)).symm
  have e1 : dat.arrAt 1 cfg1.N = V' main_arg0 := ((dat.arrAt_in 1 rfl _).trans (hA 1)).trans (hrest main_arg0 (by decide)).symm
  have e2 : dat.arrAt 2 cfg1.N = V' main_v6 := ((dat.arrAt_in 2 rfl _).trans (hA 2)).trans (hrest main_v6 (by decide)).symm
  have e3 : dat.arrAt 3 cfg1.N = V' main_v7 := ((dat.arrAt_in 3 rfl _).trans (hA 3)).trans (hrest main_v7 (by decide)).symm
  have hr : (Pipeline.unscopedRest (Ix := Unit) (Name := ℕ) (U := UR sig nD τ) (Lvl := ℕ) spec1 c V : sProp 𝕄)
      = Pipeline.unscopedRest spec1 c V' := by
    unfold Pipeline.unscopedRest
    exact bigSep_congr fun b hb => by
      rw [hrest b fun e => (Finset.mem_sdiff.mp hb).2 (e ▸ Finset.mem_image.mpr ⟨4, Finset.mem_univ _, rfl⟩)]
  rw [show (unscopedBufs (Ix := Unit) (Name := ℕ) (U := UR sig nD τ) (Lvl := ℕ) c V' : sProp 𝕄)
      = iprop(Pipeline.arrBufs spec1 c V' ∗ Pipeline.unscopedRest spec1 c V') from Pipeline.unscopedBufs_split₀ cfgs 1 Gen.winFacts₀1.arr_unscoped c V',
    arrBufs1_eq, arrays1_eq c dat hq0 hq1 hq2 hq3, e0, e1, e2, e3, ← hout, hr]
  iintro ⟨⟨Hl, Hrt, Ho⟩, Hr⟩
  isplitr [Hr]
  · isplitr [Ho]
    · iapply (pointsTo_share (PosShare.mem_left_op_right fullShare)).2
      isplitl [Hl]; · iexact Hl
      iexact Hrt
    · iexact Ho
  · iexact Hr

/-! ## What is asked of the regions' proof data -/

/-- Region 0's proof data at the entry contents V: the arrays as V has them, the argument array dealt left / right
    between windows 0 and 1, nothing owed, the body obligation, and the invariant entered from and left at the
    scoped buffers no window stages beside the generator register. -/
structure Reg0Data (V : (c : Dev nD) → (b : Ref sig .tc) → Buf (Elt F) ((c : Thread nD τ).loc b))
    (dat0 : (c : Dev nD) → Dat τ (Elt F) Unit ℕ (UR sig nD τ) ℕ cfg0 c) : Prop where
  hA : ∀ c w, (dat0 c).A w = V c (Pipeline.arrRef spec0 w)
  hq0 : ∀ c, (dat0 c).q 0 = fullShare.left
  hq1 : ∀ c, (dat0 c).q 1 = fullShare.right
  howed : ∀ c t, (dat0 c).owed t = 0
  hrec : ∀ c t, (dat0 c).recorded t = Set.univ
  hbody : ∀ c, BodyObligation (dat0 c) (defs₀ (F := F)) Variants.none () Set.univ
  hin : ∀ c, (Pipeline.ΦA (U := UR sig nD τ) spec0 c : sProp 𝕄) ⊢ (dat0 c).Φ 0
  hout : ∀ c, (dat0 c).Φ (Fin.last cfg0.N) ⊢ (Pipeline.ΦA (U := UR sig nD τ) spec0 c : sProp 𝕄)

/-- Region 1's proof data at the entry contents V. -/
structure Reg1Data (V : (c : Dev nD) → (b : Ref sig .tc) → Buf (Elt F) ((c : Thread nD τ).loc b))
    (dat1 : (c : Dev nD) → Dat τ (Elt F) Unit ℕ (UR sig nD τ) ℕ cfg1 c) : Prop where
  hA : ∀ c w, (dat1 c).A w = V c (Pipeline.arrRef spec1 w)
  hq0 : ∀ c, (dat1 c).q 0 = fullShare.left
  hq1 : ∀ c, (dat1 c).q 1 = fullShare.right
  hq2 : ∀ c, (dat1 c).q 2 = fullShare
  hq3 : ∀ c, (dat1 c).q 3 = fullShare
  howed : ∀ c t, (dat1 c).owed t = 0
  hrec : ∀ c t, (dat1 c).recorded t = Set.univ
  hbody : ∀ c, BodyObligation (dat1 c) (defs₀ (F := F)) Variants.none () Set.univ
  hin : ∀ c, (Pipeline.ΦA (U := UR sig nD τ) spec1 c : sProp 𝕄) ⊢ (dat1 c).Φ 0
  hout : ∀ c, (dat1 c).Φ (Fin.last cfg1.N) ⊢ (Pipeline.ΦA (U := UR sig nD τ) spec1 c : sProp 𝕄)

/-! ## What the regions leave -/

variable (m : (ℓ : Loc nD τ sig) → Buf (Elt F) ℓ)
variable (dat0 : (c : Dev nD) → Dat τ (Elt F) Unit ℕ (UR sig nD τ) ℕ cfg0 c)
variable (dat1 : (c : Dev nD) → Dat τ (Elt F) Unit ℕ (UR sig nD τ) ℕ cfg1 c)

/-- Region 0's part: the row sums' array holds what region 0's write-backs leave. (Off that reference the value is
    never read; the launch memory stands there.) -/
def outs0 : Gen.Outs (F := F) := fun _ r c =>
  Function.update (fun r : Ref sig .tc => m ((c : Thread nD τ).loc r)) main_v0 ((dat0 c).arrAt 2 cfg0.N) r

/-- Both regions' parts: at item 7 the result array holds what region 1's write-backs leave. -/
def outsOf : Gen.Outs (F := F) := fun J r c =>
  if J = 7 then Function.update (fun r : Ref sig .tc => m ((c : Thread nD τ).loc r)) main_v8 ((dat1 c).arrAt 4 cfg1.N) r
  else outs0 m dat0 J r c

theorem outsOf_v0 (c : Dev nD) : outsOf m dat0 dat1 1 main_v0 c = (dat0 c).arrAt 2 cfg0.N := by
  unfold outsOf outs0; rw [if_neg (by decide), Function.update_self]
theorem outsOf_v8 (c : Dev nD) : outsOf m dat0 dat1 7 main_v8 c = (dat1 c).arrAt 4 cfg1.N := by
  unfold outsOf; rw [if_pos rfl, Function.update_self]
theorem outs0_v0 (c : Dev nD) : outs0 m dat0 1 main_v0 c = (dat0 c).arrAt 2 cfg0.N := by
  unfold outs0; rw [Function.update_self]

/-- Region 1's entry contents read only region 0's part. -/
theorem V6_outsOf (c : Dev nD) : Gen.V6 m (outsOf m dat0 dat1) c = Gen.V6 m (outs0 m dat0) c := rfl

/-! ## The run: the thread states, the proof data family, the regions as segments -/

/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c

/-- The two regions' proof data as one family. -/
def pdats : (p : Fin 2) → (c : Dev nD) → Dat τ (Elt F) Unit ℕ (UR sig nD τ) ℕ (Pipeline.pin (pcfgs (F := F)) Gen.adm p) c
  | ⟨0, _⟩ => fun c => dat0 c
  | ⟨1, _⟩ => fun c => dat1 c

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region 0 over the thread state: entered from every unscoped buffer at the launch contents, left with the row
    sums' array at what its write-backs leave. -/
def reg0 (h0 : Reg0Data (fun c b => Gen.V0 m c b) dat0) :
    Pipeline.RegionSeg (pcfgs (F := F)) Gen.adm (pdats dat0 dat1) () defs₀ Variants.none L lv 0 where
  win := Gen.winFacts₀0
  block_pos := Gen.block_pos0
  stage_whole := Gen.stage_whole0
  K := PEmpty
  osem k := k.elim
  ho := Pipeline.OwnSemFacts.none _
  hbody c := (h0.hbody c).loose
  hwaits := Pipeline.hwaits_of_owed_zero _ _ _ _ L lv 0 fun c t => h0.howed c t
  pre c := iprop(StableHlo.held (c : Thread nD τ) (Pipeline.ucRefs τ sig) (Gen.V0 m c) ∗ R c)
  post c := iprop(StableHlo.held (c : Thread nD τ) (Pipeline.ucRefs τ sig) (Gen.V1 m (outsOf m dat0 dat1) c) ∗ R c)
  X c := iprop(∃ r, prngReg c r)
  Y c := iprop(∃ r, prngReg c r)
  Z c := Pipeline.unscopedRest (Ix := Unit) (Name := ℕ) (U := UR sig nD τ) (Lvl := ℕ) spec0 c (fun b => Gen.V0 m c b)
  hentry c := by
    rw [Pipeline.ownSems0_none]
    have hsplit := entry0 c (dat0 c) (fun b => Gen.V0 m c b) (h0.hA c) (h0.hq0 c) (h0.hq1 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 0 c).owed 0 = 0 from h0.howed c 0]
      icases HO with ⟨%W, HO⟩; iexists W; isplitr; · ipureintro; exact fun x _ => Or.inl ((h0.hrec c 0).symm ▸ Set.mem_univ x)
      iexact HO
    isplitl [Hp]; · iexact Hp
    iexact Hrest
  hin c := by
    refine BIBase.Entails.trans ?_ (h0.hin c)
    unfold Pipeline.ΦA
    iintro ⟨Hp, -, Hr⟩
    isplitl [Hr]; · iexact Hr
    iexact Hp
  hout c := by
    rw [Pipeline.ownSems0_none]
    refine BIBase.Entails.trans (h0.hout c) ?_
    unfold Pipeline.ΦA
    iintro ⟨Hr, Hp⟩
    isplitl [Hp]; · iexact Hp
    isplitr; · iempintro
    iexact Hr
  hexit c := by
    have hjoin := exit0 c (dat0 c) (fun b => Gen.V0 m c b) (fun b => Gen.V1 m (outsOf m dat0 dat1) c b) (h0.hA c) (h0.hq0 c) (h0.hq1 c)
      ((Function.update_self ..).trans (outsOf_v0 m dat0 dat1 c))
      (fun b hb => Gen.V1_of m (outsOf m dat0 dat1) c b fun h => hb (List.mem_singleton.mp h))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    rw [show (pdats dat0 dat1 0 c).owed (Fin.last _) = 0 from h0.howed c _]
    icases HO with ⟨%W, -, HO⟩; iexists W; iexact HO

set_option backward.isDefEq.respectTransparency.types false in
/-- Region 1 over the thread state: entered from every unscoped buffer at what the host stretches computed from
    region 0's result, left with the result array at what its write-backs leave. -/
def reg1 (h1 : Reg1Data (fun c b => Gen.V6 m (outs0 m dat0) c b) dat1) :
    Pipeline.RegionSeg (pcfgs (F := F)) Gen.adm (pdats dat0 dat1) () defs₀ Variants.none L lv 1 where
  win := Gen.winFacts₀1
  block_pos := Gen.block_pos1
  stage_whole := Gen.stage_whole1
  K := PEmpty
  osem k := k.elim
  ho := Pipeline.OwnSemFacts.none _
  hbody c := (h1.hbody c).loose
  hwaits := Pipeline.hwaits_of_owed_zero _ _ _ _ L lv 1 fun c t => h1.howed c t
  pre c := iprop(StableHlo.held (c : Thread nD τ) (Pipeline.ucRefs τ sig) (Gen.V6 m (outsOf m dat0 dat1) c) ∗ R c)
  post c := iprop((StableHlo.held (c : Thread nD τ) (Pipeline.ucRefs τ sig) (Gen.V7 m (outsOf m dat0 dat1) c) ∗ ∃ r, prngReg c r)
    ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (fun b => Gen.V6 m (outsOf m dat0 dat1) c b)
  hentry c := by
    rw [Pipeline.ownSems0_none]
    have hsplit := entry1 c (dat1 c) (fun b => Gen.V6 m (outsOf m dat0 dat1) c b) (h1.hA c) (h1.hq0 c) (h1.hq1 c) (h1.hq2 c) (h1.hq3 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 1 c).owed 0 = 0 from h1.howed c 0]
      icases HO with ⟨%W, HO⟩; iexists W; isplitr; · ipureintro; exact fun x _ => Or.inl ((h1.hrec c 0).symm ▸ Set.mem_univ x)
      iexact HO
    isplitl [Hp]; · iexact Hp
    iexact Hrest
  hin c := by
    refine BIBase.Entails.trans ?_ (h1.hin c)
    unfold Pipeline.ΦA
    iintro ⟨Hp, -, Hr⟩
    isplitl [Hr]; · iexact Hr
    iexact Hp
  hout c := by
    rw [Pipeline.ownSems0_none]
    refine BIBase.Entails.trans (h1.hout c) ?_
    unfold Pipeline.ΦA
    iintro ⟨Hr, Hp⟩
    isplitl [Hp]; · iexact Hp
    isplitr; · iempintro
    iexact Hr
  hexit c := by
    have hjoin := exit1 c (dat1 c) (fun b => Gen.V6 m (outsOf m dat0 dat1) c b) (fun b => Gen.V7 m (outsOf m dat0 dat1) c b)
      (h1.hA c) (h1.hq0 c) (h1.hq1 c) (h1.hq2 c) (h1.hq3 c)
      ((Function.update_self ..).trans (outsOf_v8 m dat0 dat1 c))
      (fun b hb => Gen.V7_of m (outsOf m dat0 dat1) c b fun h => hb (List.mem_singleton.mp h))
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    rw [show (pdats dat0 dat1 1 c).owed (Fin.last _) = 0 from h1.howed c _]
    icases HO with ⟨%W, -, HO⟩; iexists W; iexact HO

/-! ## The launch -/

-- the kit's implicit arguments are found by unifying its conclusion with this one, which takes unfolding plain
-- definitions in a metavariable's type
set_option backward.isDefEq.respectTransparency.types false in
/-- Every weakly fair execution of the entry function from memory m with zero counters terminates, and every final
    memory holds, on every core, the result array at what region 1's write-backs leave and the argument as launched. -/
theorem run_regions (ρ : Dev nD → PrngReg) (h0 : Reg0Data (fun c b => Gen.V0 m c b) dat0)
    (h1 : Reg1Data (fun c b => Gen.V6 m (outs0 m dat0) c b) dat1) :
    θ_run defs (onTc (τ := τ) (main (F := F))) ⟨m, fun _ => 0, ρ⟩ (fun r => ∀ c : Dev nD,
      r.2.mem ((c.tc : Thread nD τ).loc main_v8) = (dat1 c).arrAt 4 cfg1.N
      ∧ r.2.mem ((c.tc : Thread nD τ).loc main_arg0) = m ((c.tc : Thread nD τ).loc main_arg0)) := by
  refine Pipeline.θ_run_regions_kit_dev (pcfgs (F := F)) Gen.adm (pdats dat0 dat1) () Gen.cellOf_inj emb₁ defs₀ Variants.none L lv m ρ main
    (Gen.segs m (outsOf m dat0 dat1) Variants.none L lv E () (pdats dat0 dat1) (reg0 m dat0 dat1 h0) (reg1 m dat0 dat1 h1))
    (fun c Q => by
      rewrite [Gen.main_chain c, Pipeline.Seg.run_eq_chain,
        show (Gen.segs m (outsOf m dat0 dat1) Variants.none L lv E () (pdats dat0 dat1) (reg0 m dat0 dat1 h0) (reg1 m dat0 dat1 h1) c).map Pipeline.Seg.prog = [
          Prog.lift (.customCall (Pipeline.entry 0) ()),
          StableHlo.seq Gen.hostOps1,
          StableHlo.seq Gen.hostOps1_1,
          StableHlo.seq Gen.hostOps1_2,
          StableHlo.seq Gen.hostOps1_3,
          StableHlo.seq Gen.hostOps1_4,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V7 m (outsOf m dat0 dat1) c) ∗ ∃ r, prngReg c r))
    (hch := fun c => ⟨.rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V7 m (outsOf m dat0 dat1) c b)
    (hfin := fun c s' => by
      iintro ⟨⟨Hh, -⟩, HSI⟩
      unfold StableHlo.held
      imodintro
      iapply (pointsTo_read_all (Pipeline.ucRefs τ sig) (fun b => (((c : Thread nD τ)).1, b)) (Gen.V7 m (outsOf m dat0 dat1) c) s')
      isplitl [Hh] <;> iassumption)
    (hQ := fun s h c =>
      ⟨(h c _ (mem_uc main_v8 (by decide))).trans ((Function.update_self ..).trans (outsOf_v8 m dat0 dat1 c)),
       (h c _ (mem_uc main_arg0 (by decide))).trans (Gen.V7_main_arg0 m (outsOf m dat0 dat1) c)⟩)

end Cert.Kernel.Hand

end
-- ==== Proof.K.Runs0.lean ====
/-
  Region 0 (the row-sum pass): what its proofs share.

  The grid is 16 × 16, point t = 16·i + j for row block i and column block j. The body resets the
  512 × 1 accumulator when j = 0, adds the block's row sums to it at every point, and copies it to the
  output block when j = 15. So a point is in one of three cases: the first column block (reset, no
  output), a middle one (neither), the last (output). The output window is idle, and not written
  back, at the points of the first two cases.
-/
import proofs.«132871_j43860206027551_1_alg».proof.Proof.Gen.Kernel.Launch
import proofs.«132871_j43860206027551_1_alg».proof.Proof.Gen.Kernel.Skeleton
import proofs.«132871_j43860206027551_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

/-- "This is the first column block": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last column block": the accumulator is copied to the output block. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_2 : View sig .tc .vmem S512x1 .f32 := (Memref.whole cc0_stg2_0 : Memref sig .tc .vmem S512x1 .f32).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0 : Memref sig .tc .vmem S512x1 .f32 := Memref.whole cc0_scratch0
abbrev VS0 : View sig .tc .vmem S512x1 .f32 := scM0.view

/-- The scoped buffers that are neither a staging buffer of this region nor the accumulator (the other
    region's staging buffers), each whole at some contents: they ride along untouched. -/
def restS (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- What the region holds of the core's scoped state between points, the accumulator singled out. -/
theorem PhiA0_eq (c : Dev nD) :
    (Pipeline.ΦA spec0 c : sProp 𝕄)
      = iprop(iprop((∃ d, owns (c : Thread nD τ) scM0 fullShare d) ∗ restS c) ∗ (∃ r, prngReg c r)) := by
  unfold Pipeline.ΦA restS; rw [scopedRest0_eq]; simp only [scM0, owns_whole]; try rfl

end Cert.Kernel.Hand

end
-- ==== Proof.K.Run0A.lean ====
/-
  Region 0, the first column block: the accumulator is reset and then added to; the output block is left alone.
-/
import proofs.«132871_j43860206027551_1_alg».proof.Proof.K.Runs0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case: the pieces its stores leave in the accumulator (the witness the run
    finds) with the triple on whole memrefs — the accumulator found at anything. -/
noncomputable def kernelRun0_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 x1 : Vec F S512x512 .f32) :
    { LS : List (View.Piece (Elt F) S512x1 .f32) //
      ∀ (xi : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__rowsum_kernel i arg2 harg2 arg3 harg3 arg4 harg4 arg5 harg5) K } := by
  refine ⟨?_, fun xi E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.K.Run0B.lean ====
/-
  Region 0, a middle column block: the accumulator is added to, the output block is left alone.
-/
import proofs.«132871_j43860206027551_1_alg».proof.Proof.K.Runs0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case: the pieces its stores leave (the witness the run finds) with the triple
    on whole memrefs — the two input blocks at their contents and handed back as they were. -/
noncomputable def kernelRun0_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 x1 : Vec F S512x512 .f32) (xs : Vec F S512x1 .f32) :
    { LS : List (View.Piece (Elt F) S512x1 .f32) //
      ∀ (xi : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__rowsum_kernel i arg2 harg2 arg3 harg3 arg4 harg4 arg5 harg5) K } := by
  refine ⟨?_, fun xi E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.K.Run0C.lean ====
/-
  Region 0, the last column block: the accumulator is added to and then copied to the output block.
-/
import proofs.«132871_j43860206027551_1_alg».proof.Proof.K.Runs0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case: the pieces its stores leave in the output block and in the accumulator
    (the witness the run finds) with the triple on whole memrefs — the output block found at anything. -/
noncomputable def kernelRun0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 x1 : Vec F S512x512 .f32) (xs : Vec F S512x1 .f32) :
    Σ' (L2 : List (View.Piece (Elt F) S512x1 .f32)), { LS : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__rowsum_kernel i arg2 harg2 arg3 harg3 arg4 harg4 arg5 harg5) K } := by
  refine ⟨?_, ?_, fun E K => ?run⟩
  case run =>
    simp only [cc0__rowsum_kernel_eq_skeleton]; unfold cc0__rowsum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

end Cert.Kernel.Hand

end
-- ==== Proof.K.Frame0.lean ====
/-
  Region 0 (the row-sum pass): what the accumulator and the output block hold after each point, the
  proof data over those contents, and the body obligation.

  After point t = 16·i + j the accumulator holds the sum, over the column blocks 0 … j, of the block's
  row sums of row block i: at j = 0 the body's result from a freshly reset accumulator, afterwards the
  body's result from what the point before left. At j = 15 the output block is that same vector.
-/
import proofs.«132871_j43860206027551_1_alg».proof.Proof.K.Run0A
import proofs.«132871_j43860206027551_1_alg».proof.Proof.K.Run0B
import proofs.«132871_j43860206027551_1_alg».proof.Proof.K.Run0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- First column block: the pieces left in the accumulator cover it. -/
theorem scover0_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 x1 : Vec F S512x512 .f32) (y : S512x1.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S512x1.size (by sl_kernel_rfl) y
/-- What it leaves in the accumulator. -/
def sout0_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 x1 : Vec F S512x512 .f32) : Vec F S512x1 .f32 :=
  VS0.read (Elt F) (VS0.writes (Elt F) VS0.junk (kernelRun0_A c i arg2 harg2 arg3 harg3 arg4 harg4 arg5 harg5 hc0 hc1 x0 x1).1)

/-- A middle column block: the pieces left in the accumulator cover it. -/
theorem scover0_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 x1 : Vec F S512x512 .f32) (xs : Vec F S512x1 .f32) (y : S512x1.Idx) :
    ∃ pc ∈ (kernelRun0_B c i arg2 harg2 arg3 harg3 arg4 harg4 arg5 harg5 hc0 hc1 x0 x1 xs).1, y ∈ pc.1.set :=
  View.cover_of_tiledL (kernelRun0_B c i arg2 harg2 arg3 harg3 arg4 harg4 arg5 harg5 hc0 hc1 x0 x1 xs).1 S512x1.size (by sl_kernel_rfl) y
def sout0_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 x1 : Vec F S512x512 .f32) (xs : Vec F S512x1 .f32) : Vec F S512x1 .f32 :=
  VS0.read (Elt F) (VS0.writes (Elt F) VS0.junk (kernelRun0_B c i arg2 harg2 arg3 harg3 arg4 harg4 arg5 harg5 hc0 hc1 x0 x1 xs).1)

/-- The last column block: the pieces left in the output block, and in the accumulator, cover them. -/
theorem cover0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 x1 : Vec F S512x512 .f32) (xs : Vec F S512x1 .f32) (y : S512x1.Idx) :
    ∃ pc ∈ (kernelRun0_C c i arg2 harg2 arg3 harg3 arg4 harg4 arg5 harg5 hc0 hc1 x0 x1 xs).1, y ∈ pc.1.set :=
  View.cover_of_tiledL (kernelRun0_C c i arg2 harg2 arg3 harg3 arg4 harg4 arg5 harg5 hc0 hc1 x0 x1 xs).1 S512x1.size (by sl_kernel_rfl) y
def out0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 x1 : Vec F S512x512 .f32) (xs : Vec F S512x1 .f32) : Vec F S512x1 .f32 :=
  VO0_2.read (Elt F) (VO0_2.writes (Elt F) VO0_2.junk (kernelRun0_C c i arg2 harg2 arg3 harg3 arg4 harg4 arg5 harg5 hc0 hc1 x0 x1 xs).1)
theorem scover0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 x1 : Vec F S512x512 .f32) (xs : Vec F S512x1 .f32) (y : S512x1.Idx) :
    ∃ pc ∈ (kernelRun0_C c i arg2 harg2 arg3 harg3 arg4 harg4 arg5 harg5 hc0 hc1 x0 x1 xs).2.1, y ∈ pc.1.set :=
  View.cover_of_tiledL (kernelRun0_C c i arg2 harg2 arg3 harg3 arg4 harg4 arg5 harg5 hc0 hc1 x0 x1 xs).2.1 S512x1.size (by sl_kernel_rfl) y
def sout0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 x1 : Vec F S512x512 .f32) (xs : Vec F S512x1 .f32) : Vec F S512x1 .f32 :=
  VS0.read (Elt F) (VS0.writes (Elt F) VS0.junk (kernelRun0_C c i arg2 harg2 arg3 harg3 arg4 harg4 arg5 harg5 hc0 hc1 x0 x1 xs).2.1)

/-! ## What the output block and the accumulator hold after each point -/

/-- After position `n`: (the output block's buffer, the accumulator). Where the point stores nothing into the
    output block (every column block but the last) the first component is a placeholder nothing consults. -/
def outsAt0 (c : Dev nD) : (n : ℕ) → n < cfg0.N → Vec F S512x1 .f32 × Vec F S512x1 .f32
  | 0, hn => (sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : (n + 1) % 16 = 15 then
        False.elim (by omega)
      else
        (sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t), sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer it may use at
    anything; afterwards the accumulator at what the point before left, the rest at anything. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ restS c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2) ∗ restS c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2) ∗ restS c) ∗ (∃ r, prngReg c r)) := by
  cases n with
  | zero => exact absurd rfl hz
  | succ n => rfl

/-! ## The proof data -/

/-- Region 0's proof data on core `c`: the arrays as the region finds them; after the body each input's
    buffer at its block and the output's at `outsAt0`; the invariant `PhiS`; nothing owed. The two input
    windows read ONE array: each holds it at half of the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the closed forms say which case the
    point is in; the invariant hands the body the accumulator at what the point before left (at anything
    at the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · have h1 : ¬t.val % 16 = 15 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A; (try dsimp only)
    by_cases hz : t.val = 0
    · rw [PhiS_castSucc V c t, PhiS_zero V c _ _ hz, PhiA0_eq]
      iintro ⟨⟨⟨HS, HR⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, HR⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun h => h0 (by rw [h])
    by_cases h1 : t.val % 16 = 15
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS_castSucc V c t, PhiS_pos V c _ _ hz]
      iintro ⟨⟨⟨HS, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover0_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS_castSucc V c t, PhiS_pos V c _ _ hz]
      iintro ⟨⟨⟨HS, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover0_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the launch's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 256 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS, HR⟩, Hg⟩
  isplitl [HS HR]
  · isplitl [HS]
    · iexists _; iexact HS
    iexact HR
  iexact Hg

end Cert.Kernel.Hand

end
-- ==== Proof.K.Body1.lean ====
/-
  The normalising pass as a pipelined kernel: what its body does to the staging buffers, and the
  proof data of the pipeline, for any float instance.

  The pass runs on a 16 × 16 grid. At grid point (a, b) it is handed five staging buffers: block
  (a, b) of the array, block (b, a) of the same array (the transposed partner), rows 512·a … 512·a+511
  of the column vector of scales, columns 512·b … 512·b+511 of the row vector of scales, and the
  buffer of the output block (a, b). It loads the four inputs whole, loads the output buffer (the
  value is not used), and stores one 512 × 512 value — a pure function `k1_pay1` of the four loaded
  values and the grid point — over the whole output buffer. Nothing else is touched.

  So, at every point, each input buffer holds that window's block of its array as the pass found the
  array (whether or not the pipeline fetched it at this very point: an unfetched window's block index
  has not moved), and the output buffer ends at `out1_4`, the stored value. The two windows on the
  one array each hold it at half of the full share.
-/
import proofs.«132871_j43860206027551_1_alg».proof.Proof.Gen.Kernel.Launch
import proofs.«132871_j43860206027551_1_alg».proof.Proof.Gen.Kernel.Skeleton
import proofs.«132871_j43860206027551_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the pass is entered
variable (V : (c : Dev nD) → (b : Ref sig .tc) → Buf (Elt F) ((c : Thread nD τ).loc b))

/-! ## The windows' blocks -/

/-- Window `w`'s block at point `t`, read off its array as the pass finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of window 1, the transposed partner block of the same array. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of window 2, the rows of the column of scales: fetched only when the row block changes, and between
    two fetches the block index does not move. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same of window 3, the columns of the row of scales. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S512x512 := Rect.unit (s := S512x512) ![0, 0] S512x512.size inb_S512x512_S512x512_0_0
abbrev r1_1 : Rect S512x1 := Rect.unit (s := S512x1) ![0, 0] S512x1.size inb_S512x1_S512x1_0_0
abbrev r1_2 : Rect S1x512 := Rect.unit (s := S1x512) ![0, 0] S1x512.size inb_S1x512_S1x512_0_0

/-! ## What the body leaves in the output window's buffer -/

/-- The output buffer after the body at grid point `i`, from the four input blocks: the one store, over the whole
    buffer, of the body's value at what the four loads read. -/
def out1_4 (i : grid1.Coords) (x0 x1 : Vec F S512x512 .f32) (x2 : Vec F S512x1 .f32) (x3 : Vec F S1x512 .f32) : Vec F S512x512 .f32 :=
  View.canon [⟨r1_0, k1_pay1 i (View.ld x0 r1_0) (View.ld x1 r1_0) (View.ld x2 r1_1) (View.ld x3 r1_2)⟩]

/-- The store is of the whole buffer, so it covers it. -/
theorem cover1_4 (p0 : Vec F S512x512 .f32) (y : S512x512.Idx) :
    ∃ pc ∈ ([⟨r1_0, p0⟩] : List (View.Piece (Elt F) S512x512 .f32)), y ∈ pc.1.set :=
  View.cover_of_tiled [⟨r1_0, p0⟩] S512x512.size (by rfl) y

/-! ## The body's triple -/

set_option maxHeartbeats 1000000 in
/-- The body on whole staging buffers, the four inputs' at read contents `x0 … x3` and the output's at anything, runs
    to the continuation holding the inputs' as they were and the output's at `out1_4` of the inputs'. The load of the
    output buffer before the store reads a value nothing uses. -/
theorem sound_kernel1 (c : Dev nD) (E : Set ℕ) (i : grid1.Coords)
    (arg2 : Memref sig .tc .vmem S512x512 .f32) (harg2 : arg2.IsWhole) (arg3 : Memref sig .tc .vmem S512x512 .f32) (harg3 : arg3.IsWhole)
    (arg4 : Memref sig .tc .vmem S512x1 .f32) (harg4 : arg4.IsWhole) (arg5 : Memref sig .tc .vmem S1x512 .f32) (harg5 : arg5.IsWhole)
    (arg6 : Memref sig .tc .vmem S512x512 .f32) (harg6 : arg6.IsWhole)
    (x0 x1 : Vec F S512x512 .f32) (x2 : Vec F S512x1 .f32) (x3 : Vec F S1x512 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out1_4 i x0 x1 x2 x3)) -∗ K ⟨⟩))
      ⊢ wp frame (wpE (defs₀ (F := F)) Variants.none c none) E (cc1__norm_kernel i arg2 harg2 arg3 harg3 arg4 harg4 arg5 harg5 arg6 harg6) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the pass on core `c`: the arrays as the pass finds them (`V`); after the body at point `t` each
    input's buffer at its block and the output's at `out1_4` of the input blocks; the invariant the scoped rest and
    the generator register, untouched; nothing owed. Windows 0 and 1 sit on one array: each holds it at half of the
    full share; the others hold theirs whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (grid1.coords t) (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the contents at entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (grid1.coords t) (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so `sound_kernel1` applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole run of the entry function: the launch over the two passes' proof data.

  The first pass is entered at the launch memory; the second at what the host operations make of the
  first pass's output. Every weakly fair execution terminates, the result array holds what the second
  pass's write-backs leave, and the argument array is unchanged.
-/
import proofs.«132871_j43860206027551_1_alg».proof.Proof.K.Launch
import proofs.«132871_j43860206027551_1_alg».proof.Proof.K.Frame0
import proofs.«132871_j43860206027551_1_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents the first pass is entered at. -/
abbrev Vin0 : (c : Dev nD) → (b : Ref sig .tc) → Buf (Elt F) ((c : Thread nD τ).loc b) := fun c b => Gen.V0 m c b
/-- The first pass's proof data. -/
abbrev D0 : (c : Dev nD) → Dat τ (Elt F) Unit ℕ (UR sig nD τ) ℕ cfg0 c := fun c => dat0 (Vin0 m) c
/-- The contents the second pass is entered at. -/
abbrev Vin1 : (c : Dev nD) → (b : Ref sig .tc) → Buf (Elt F) ((c : Thread nD τ).loc b) := fun c b => Gen.V6 m (outs0 m (D0 m)) c b
/-- The second pass's proof data. -/
abbrev D1 : (c : Dev nD) → Dat τ (Elt F) Unit ℕ (UR sig nD τ) ℕ cfg1 c := fun c => dat1 (Vin1 m) c

theorem regData0 : Reg0Data (Vin0 m) (D0 m) where
  hA c w := A_eq0 (Vin0 m) c w
  hq0 c := by dsimp only [D0, dat0]
  hq1 c := by dsimp only [D0, dat0]
  howed c t := by dsimp only [D0, dat0]
  hrec c t := rfl
  hbody c := body_obligation0 (Vin0 m) c
  hin c := hin0 (Vin0 m) c
  hout c := hout0 (Vin0 m) c

theorem regData1 : Reg1Data (Vin1 m) (D1 m) where
  hA c w := A_eq1 (Vin1 m) c w
  hq0 c := by dsimp only [D1, dat1]
  hq1 c := by dsimp only [D1, dat1]
  hq2 c := by dsimp only [D1, dat1]
  hq3 c := by dsimp only [D1, dat1]
  howed c t := by dsimp only [D1, dat1]
  hrec c t := rfl
  hbody c := body_obligation1 (Vin1 m) c
  hin c := by rw [show (D1 m c).Φ 0 = Pipeline.ΦA spec1 c from rfl]
  hout c := by rw [show (D1 m c).Φ (Fin.last cfg1.N) = Pipeline.ΦA spec1 c from rfl]

/-- THE RUN: the result array at what the second pass's write-backs leave, the argument unchanged. -/
theorem run_hand (ρ : Dev nD → PrngReg) :
    θ_run defs (onTc (τ := τ) (main (F := F))) ⟨m, fun _ => 0, ρ⟩ (fun r => ∀ c : Dev nD,
      r.2.mem ((c.tc : Thread nD τ).loc main_v8) = (D1 m c).arrAt 4 cfg1.N
      ∧ r.2.mem ((c.tc : Thread nD τ).loc main_arg0) = m ((c.tc : Thread nD τ).loc main_arg0)) :=
  run_regions m (D0 m) (D1 m) ρ (regData0 m) (regData1 m)

/-- THE FRAME: every weakly fair execution terminates and the argument array ends as launched. -/
theorem frame_hand (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_hand m ρ)

end Cert.Kernel.Hand

end
-- ==== Proof.KI.Launch.lean ====
/-
  The two kernel regions and the five host stretches of the program's entry function, composed.

  Between two items of the entry function core c holds every unscoped buffer whole, at a valuation that is
  the launch memory, then what each host stretch computes, then what a region leaves in its output array.
  Each region reads the one argument array through two windows; the buffer's full share is dealt between
  them, the left half to window 0 and the right half to window 1, and joined back when the region is left.
  The regions' proof data are abstract here: what is asked of them is collected in Reg0Data / Reg1Data.
-/
import proofs.«132871_j43860206027551_1_alg».proof.Proof.Gen.KernelIdeal.Regions
import Idealize.ShloMosaic.Lib.Pipeline.Frame
import Idealize.ShloMosaic.Lib.Pipeline.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The distinct buffers behind each region's windows -/

theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v0) ↦{fullShare} V main_v0)) := by
  unfold Pipeline.arrBufs
  exact bigSep_eq_bigSepL_of_eq [main_arg0, main_v0] (by decide) (by decide) _

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_v6) ↦{fullShare} V main_v6)
          ∗ (((c : Thread nD τ).loc main_v7) ↦{fullShare} V main_v7) ∗ (((c : Thread nD τ).loc main_v8) ↦{fullShare} V main_v8)) := by
  unfold Pipeline.arrBufs
  exact bigSep_eq_bigSepL_of_eq [main_arg0, main_v6, main_v7, main_v8] (by decide) (by decide) _

/-! ## A region's arrays, window by window, at the shares the windows hold -/

theorem arrays0_eq (c : Dev nD) (dat : Dat τ (Elt F) Unit ℕ (UR sig nD τ) ℕ cfg0 c)
    (hq0 : dat.q 0 = fullShare.left) (hq1 : dat.q 1 = fullShare.right)
    (G : (w : Fin cfg0.W) → Buf (Elt F) ((cfg0.win w).arr.view.loc (c : Thread nD τ))) :
    (dat.arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  have s0 : dat.share 0 = fullShare.left := by unfold Dat.share; exact hq0
  have s1 : dat.share 1 = fullShare.right := by unfold Dat.share; exact hq1
  have s2 : dat.share 2 = fullShare := by unfold Dat.share; rfl
  unfold Dat.arrays
  rw [Gen.bigSep_W0, s0, s1, s2, (Gen.arr_whole0 0).set_eq_univ, (Gen.arr_whole0 2).set_eq_univ]

theorem arrays1_eq (c : Dev nD) (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (G : (w : Fin cfg1.W) → Buf (Elt F) ((cfg1.win w).arr.view.loc (c : Thread nD τ))) :
    (dat.arrays G : sProp 𝕄)
      = iprop((((c : Thread nD τ).loc main_arg0) ↦{fullShare.left} G 0) ∗ (((c : Thread nD τ).loc main_arg0) ↦{fullShare.right} G 1)
          ∗ (((c : Thread nD τ).loc main_v6) ↦{fullShare} G 2) ∗ (((c : Thread nD τ).loc main_v7) ↦{fullShare} G 3)
          ∗ (((c : Thread nD τ).loc main_v8) ↦{fullShare} G 4)) := by
  have s0 : dat.share 0 = fullShare.left := by unfold Dat.share; exact hq0
  have s1 : dat.share 1 = fullShare.right := by unfold Dat.share; exact hq1
  have s2 : dat.share 2 = fullShare := by unfold Dat.share; exact hq2
  have s3 : dat.share 3 = fullShare := by unfold Dat.share; exact hq3
  have s4 : dat.share 4 = fullShare := by unfold Dat.share; rfl
  unfold Dat.arrays
  rw [Gen.bigSep_W1, s0, s1, s2, s3, s4, (Gen.arr_whole1 0).set_eq_univ, (Gen.arr_whole1 2).set_eq_univ,
    (Gen.arr_whole1 3).set_eq_univ, (Gen.arr_whole1 4).set_eq_univ]

/-! ## Entering and leaving a region: the unscoped buffers against the region's arrays and the rest -/

/-- Region 0 entered: the core's unscoped buffers at V are the region's arrays at the proof data's entry contents,
    the argument array's full share dealt into its halves, and the rest. -/
theorem entry0 (c : Dev nD) (dat : Dat τ (Elt F) Unit ℕ (UR sig nD τ) ℕ cfg0 c)
    (V : (b : Ref sig .tc) → Buf (Elt F) ((c : Thread nD τ).loc b))
    (hA : ∀ w, dat.A w = V (Pipeline.arrRef spec0 w)) (hq0 : dat.q 0 = fullShare.left) (hq1 : dat.q 1 = fullShare.right) :
    (unscopedBufs (Ix := Unit) (Name := ℕ) (U := UR sig nD τ) (Lvl := ℕ) c V : sProp 𝕄)
      ⊢ iprop(dat.arrays (dat.arrAt · 0) ∗ Pipeline.unscopedRest (Ix := Unit) (Name := ℕ) (U := UR sig nD τ) (Lvl := ℕ) spec0 c V) := by
  rw [show (unscopedBufs (Ix := Unit) (Name := ℕ) (U := UR sig nD τ) (Lvl := ℕ) c V : sProp 𝕄)
      = iprop(Pipeline.arrBufs spec0 c V ∗ Pipeline.unscopedRest spec0 c V) from Pipeline.unscopedBufs_split₀ cfgs 0 Gen.winFacts₀0.arr_unscoped c V, arrBufs0_eq, arrays0_eq c dat hq0 hq1,
    show dat.arrAt 0 0 = V main_arg0 from hA 0, show dat.arrAt 1 0 = V main_arg0 from hA 1, show dat.arrAt 2 0 = V main_v0 from hA 2]
  iintro ⟨⟨Ha, Ho⟩, Hr⟩
  ihave Ha2 := (pointsTo_share (PosShare.mem_left_op_right fullShare)).1 $$ Ha
  icases Ha2 with ⟨Hl, Hrt⟩
  isplitr [Hr]
  · isplitl [Hl]; · iexact Hl
    isplitl [Hrt]; · iexact Hrt
    iexact Ho
  · iexact Hr

/-- Region 0 left: its arrays at their final contents, the halves of the argument array joined back, and the rest
    at V are the core's unscoped buffers at any V' that has the output at what the region leaves and agrees with V
    elsewhere. -/
theorem exit0 (c : Dev nD) (dat : Dat τ (Elt F) Unit ℕ (UR sig nD τ) ℕ cfg0 c)
    (V V' : (b : Ref sig .tc) → Buf (Elt F) ((c : Thread nD τ).loc b))
    (hA : ∀ w, dat.A w = V (Pipeline.arrRef spec0 w)) (hq0 : dat.q 0 = fullShare.left) (hq1 : dat.q 1 = fullShare.right)
    (hout : V' main_v0 = dat.arrAt 2 cfg0.N) (hrest : ∀ b, b ≠ main_v0 → V' b = V b) :
    iprop(dat.arrays (dat.arrAt · cfg0.N) ∗ Pipeline.unscopedRest (Ix := Unit) (Name := ℕ) (U := UR sig nD τ) (Lvl := ℕ) spec0 c V)
      ⊢ (unscopedBufs (Ix := Unit) (Name := ℕ) (U := UR sig nD τ) (Lvl := ℕ) c V' : sProp 𝕄) := by
  have e0 : dat.arrAt 0 cfg0.N = V' main_arg0 := ((dat.arrAt_in 0 rfl _).trans (hA 0)).trans (hrest main_arg0 (by decide)).symm
  have e1 : dat.arrAt 1 cfg0.N = V' main_arg0 := ((dat.arrAt_in 1 rfl _).trans (hA 1)).trans (hrest main_arg0 (by decide)).symm
  have hr : (Pipeline.unscopedRest (Ix := Unit) (Name := ℕ) (U := UR sig nD τ) (Lvl := ℕ) spec0 c V : sProp 𝕄)
      = Pipeline.unscopedRest spec0 c V' := by
    unfold Pipeline.unscopedRest
    exact bigSep_congr fun b hb => by
      rw [hrest b fun e => (Finset.mem_sdiff.mp hb).2 (e ▸ Finset.mem_image.mpr ⟨2, Finset.mem_univ _, rfl⟩)]
  rw [show (unscopedBufs (Ix := Unit) (Name := ℕ) (U := UR sig nD τ) (Lvl := ℕ) c V' : sProp 𝕄)
      = iprop(Pipeline.arrBufs spec0 c V' ∗ Pipeline.unscopedRest spec0 c V') from Pipeline.unscopedBufs_split₀ cfgs 0 Gen.winFacts₀0.arr_unscoped c V', arrBufs0_eq, arrays0_eq c dat hq0 hq1, e0, e1, ← hout, hr]
  iintro ⟨⟨Hl, Hrt, Ho⟩, Hr⟩
  isplitr [Hr]
  · isplitr [Ho]
    · iapply (pointsTo_share (PosShare.mem_left_op_right fullShare)).2
      isplitl [Hl]; · iexact Hl
      iexact Hrt
    · iexact Ho
  · iexact Hr

/-- Region 1 entered. -/
theorem entry1 (c : Dev nD) (dat : Dat τ (Elt F) Unit ℕ (UR sig nD τ) ℕ cfg1 c)
    (V : (b : Ref sig .tc) → Buf (Elt F) ((c : Thread nD τ).loc b))
    (hA : ∀ w, dat.A w = V (Pipeline.arrRef spec1 w)) (hq0 : dat.q 0 = fullShare.left) (hq1 : dat.q 1 = fullShare.right)
    (hq2 : dat.q 2 = fullShare) (hq3 : dat.q 3 = fullShare) :
    (unscopedBufs (Ix := Unit) (Name := ℕ) (U := UR sig nD τ) (Lvl := ℕ) c V : sProp 𝕄)
      ⊢ iprop(dat.arrays (dat.arrAt · 0) ∗ Pipeline.unscopedRest (Ix := Unit) (Name := ℕ) (U := UR sig nD τ) (Lvl := ℕ) spec1 c V) := by
  rw [show (unscopedBufs (Ix := Unit) (Name := ℕ) (U := UR sig nD τ) (Lvl := ℕ) c V : sProp 𝕄)
      = iprop(Pipeline.arrBufs spec1 c V ∗ Pipeline.unscopedRest spec1 c V) from Pipeline.unscopedBufs_split₀ cfgs 1 Gen.winFacts₀1.arr_unscoped c V,
    arrBufs1_eq, arrays1_eq c dat hq0 hq1 hq2 hq3,
    show dat.arrAt 0 0 = V main_arg0 from hA 0, show dat.arrAt 1 0 = V main_arg0 from hA 1, show dat.arrAt 2 0 = V main_v6 from hA 2,
    show dat.arrAt 3 0 = V main_v7 from hA 3, show dat.arrAt 4 0 = V main_v8 from hA 4]
  iintro ⟨⟨Ha, Ho⟩, Hr⟩
  ihave Ha2 := (pointsTo_share (PosShare.mem_left_op_right fullShare)).1 $$ Ha
  icases Ha2 with ⟨Hl, Hrt⟩
  isplitr [Hr]
  · isplitl [Hl]; · iexact Hl
    isplitl [Hrt]; · iexact Hrt
    iexact Ho
  · iexact Hr

/-- Region 1 left. -/
theorem exit1 (c : Dev nD) (dat : Dat τ (Elt F) Unit ℕ (UR sig nD τ) ℕ cfg1 c)
    (V V' : (b : Ref sig .tc) → Buf (Elt F) ((c : Thread nD τ).loc b))
    (hA : ∀ w, dat.A w = V (Pipeline.arrRef spec1 w)) (hq0 : dat.q 0 = fullShare.left) (hq1 : dat.q 1 = fullShare.right)
    (hq2 : dat.q 2 = fullShare) (hq3 : dat.q 3 = fullShare)
    (hout : V' main_v8 = dat.arrAt 4 cfg1.N) (hrest : ∀ b, b ≠ main_v8 → V' b = V b) :
    iprop(dat.arrays (dat.arrAt · cfg1.N) ∗ Pipeline.unscopedRest (Ix := Unit) (Name := ℕ) (U := UR sig nD τ) (Lvl := ℕ) spec1 c V)
      ⊢ (unscopedBufs (Ix := Unit) (Name := ℕ) (U := UR sig nD τ) (Lvl := ℕ) c V' : sProp 𝕄) := by
  have e0 : dat.arrAt 0 cfg1.N = V' main_arg0 := ((dat.arrAt_in 0 rfl _).trans (hA 0)).trans (hrest main_arg0 (by decide)).symm
  have e1 : dat.arrAt 1 cfg1.N = V' main_arg0 := ((dat.arrAt_in 1 rfl _).trans (hA 1)).trans (hrest main_arg0 (by decide)).symm
  have e2 : dat.arrAt 2 cfg1.N = V' main_v6 := ((dat.arrAt_in 2 rfl _).trans (hA 2)).trans (hrest main_v6 (by decide)).symm
  have e3 : dat.arrAt 3 cfg1.N = V' main_v7 := ((dat.arrAt_in 3 rfl _).trans (hA 3)).trans (hrest main_v7 (by decide)).symm
  have hr : (Pipeline.unscopedRest (Ix := Unit) (Name := ℕ) (U := UR sig nD τ) (Lvl := ℕ) spec1 c V : sProp 𝕄)
      = Pipeline.unscopedRest spec1 c V' := by
    unfold Pipeline.unscopedRest
    exact bigSep_congr fun b hb => by
      rw [hrest b fun e => (Finset.mem_sdiff.mp hb).2 (e ▸ Finset.mem_image.mpr ⟨4, Finset.mem_univ _, rfl⟩)]
  rw [show (unscopedBufs (Ix := Unit) (Name := ℕ) (U := UR sig nD τ) (Lvl := ℕ) c V' : sProp 𝕄)
      = iprop(Pipeline.arrBufs spec1 c V' ∗ Pipeline.unscopedRest spec1 c V') from Pipeline.unscopedBufs_split₀ cfgs 1 Gen.winFacts₀1.arr_unscoped c V',
    arrBufs1_eq, arrays1_eq c dat hq0 hq1 hq2 hq3, e0, e1, e2, e3, ← hout, hr]
  iintro ⟨⟨Hl, Hrt, Ho⟩, Hr⟩
  isplitr [Hr]
  · isplitr [Ho]
    · iapply (pointsTo_share (PosShare.mem_left_op_right fullShare)).2
      isplitl [Hl]; · iexact Hl
      iexact Hrt
    · iexact Ho
  · iexact Hr

/-! ## What is asked of the regions' proof data -/

/-- Region 0's proof data at the entry contents V: the arrays as V has them, the argument array dealt left / right
    between windows 0 and 1, nothing owed, the body obligation, and the invariant entered from and left at the
    scoped buffers no window stages beside the generator register. -/
structure Reg0Data (V : (c : Dev nD) → (b : Ref sig .tc) → Buf (Elt F) ((c : Thread nD τ).loc b))
    (dat0 : (c : Dev nD) → Dat τ (Elt F) Unit ℕ (UR sig nD τ) ℕ cfg0 c) : Prop where
  hA : ∀ c w, (dat0 c).A w = V c (Pipeline.arrRef spec0 w)
  hq0 : ∀ c, (dat0 c).q 0 = fullShare.left
  hq1 : ∀ c, (dat0 c).q 1 = fullShare.right
  howed : ∀ c t, (dat0 c).owed t = 0
  hrec : ∀ c t, (dat0 c).recorded t = Set.univ
  hbody : ∀ c, BodyObligation (dat0 c) (defs₀ (F := F)) Variants.none () Set.univ
  hin : ∀ c, (Pipeline.ΦA (U := UR sig nD τ) spec0 c : sProp 𝕄) ⊢ (dat0 c).Φ 0
  hout : ∀ c, (dat0 c).Φ (Fin.last cfg0.N) ⊢ (Pipeline.ΦA (U := UR sig nD τ) spec0 c : sProp 𝕄)

/-- Region 1's proof data at the entry contents V. -/
structure Reg1Data (V : (c : Dev nD) → (b : Ref sig .tc) → Buf (Elt F) ((c : Thread nD τ).loc b))
    (dat1 : (c : Dev nD) → Dat τ (Elt F) Unit ℕ (UR sig nD τ) ℕ cfg1 c) : Prop where
  hA : ∀ c w, (dat1 c).A w = V c (Pipeline.arrRef spec1 w)
  hq0 : ∀ c, (dat1 c).q 0 = fullShare.left
  hq1 : ∀ c, (dat1 c).q 1 = fullShare.right
  hq2 : ∀ c, (dat1 c).q 2 = fullShare
  hq3 : ∀ c, (dat1 c).q 3 = fullShare
  howed : ∀ c t, (dat1 c).owed t = 0
  hrec : ∀ c t, (dat1 c).recorded t = Set.univ
  hbody : ∀ c, BodyObligation (dat1 c) (defs₀ (F := F)) Variants.none () Set.univ
  hin : ∀ c, (Pipeline.ΦA (U := UR sig nD τ) spec1 c : sProp 𝕄) ⊢ (dat1 c).Φ 0
  hout : ∀ c, (dat1 c).Φ (Fin.last cfg1.N) ⊢ (Pipeline.ΦA (U := UR sig nD τ) spec1 c : sProp 𝕄)

/-! ## What the regions leave -/

variable (m : (ℓ : Loc nD τ sig) → Buf (Elt F) ℓ)
variable (dat0 : (c : Dev nD) → Dat τ (Elt F) Unit ℕ (UR sig nD τ) ℕ cfg0 c)
variable (dat1 : (c : Dev nD) → Dat τ (Elt F) Unit ℕ (UR sig nD τ) ℕ cfg1 c)

/-- Region 0's part: the row sums' array holds what region 0's write-backs leave. (Off that reference the value is
    never read; the launch memory stands there.) -/
def outs0 : Gen.Outs (F := F) := fun _ r c =>
  Function.update (fun r : Ref sig .tc => m ((c : Thread nD τ).loc r)) main_v0 ((dat0 c).arrAt 2 cfg0.N) r

/-- Both regions' parts: at item 7 the result array holds what region 1's write-backs leave. -/
def outsOf : Gen.Outs (F := F) := fun J r c =>
  if J = 7 then Function.update (fun r : Ref sig .tc => m ((c : Thread nD τ).loc r)) main_v8 ((dat1 c).arrAt 4 cfg1.N) r
  else outs0 m dat0 J r c

theorem outsOf_v0 (c : Dev nD) : outsOf m dat0 dat1 1 main_v0 c = (dat0 c).arrAt 2 cfg0.N := by
  unfold outsOf outs0; rw [if_neg (by decide), Function.update_self]
theorem outsOf_v8 (c : Dev nD) : outsOf m dat0 dat1 7 main_v8 c = (dat1 c).arrAt 4 cfg1.N := by
  unfold outsOf; rw [if_pos rfl, Function.update_self]
theorem outs0_v0 (c : Dev nD) : outs0 m dat0 1 main_v0 c = (dat0 c).arrAt 2 cfg0.N := by
  unfold outs0; rw [Function.update_self]

/-- Region 1's entry contents read only region 0's part. -/
theorem V6_outsOf (c : Dev nD) : Gen.V6 m (outsOf m dat0 dat1) c = Gen.V6 m (outs0 m dat0) c := rfl

/-! ## The run: the thread states, the proof data family, the regions as segments -/

/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c

/-- The two regions' proof data as one family. -/
def pdats : (p : Fin 2) → (c : Dev nD) → Dat τ (Elt F) Unit ℕ (UR sig nD τ) ℕ (Pipeline.pin (pcfgs (F := F)) Gen.adm p) c
  | ⟨0, _⟩ => fun c => dat0 c
  | ⟨1, _⟩ => fun c => dat1 c

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region 0 over the thread state: entered from every unscoped buffer at the launch contents, left with the row
    sums' array at what its write-backs leave. -/
def reg0 (h0 : Reg0Data (fun c b => Gen.V0 m c b) dat0) :
    Pipeline.RegionSeg (pcfgs (F := F)) Gen.adm (pdats dat0 dat1) () defs₀ Variants.none L lv 0 where
  win := Gen.winFacts₀0
  block_pos := Gen.block_pos0
  stage_whole := Gen.stage_whole0
  K := PEmpty
  osem k := k.elim
  ho := Pipeline.OwnSemFacts.none _
  hbody c := (h0.hbody c).loose
  hwaits := Pipeline.hwaits_of_owed_zero _ _ _ _ L lv 0 fun c t => h0.howed c t
  pre c := iprop(StableHlo.held (c : Thread nD τ) (Pipeline.ucRefs τ sig) (Gen.V0 m c) ∗ R c)
  post c := iprop(StableHlo.held (c : Thread nD τ) (Pipeline.ucRefs τ sig) (Gen.V1 m (outsOf m dat0 dat1) c) ∗ R c)
  X c := iprop(∃ r, prngReg c r)
  Y c := iprop(∃ r, prngReg c r)
  Z c := Pipeline.unscopedRest (Ix := Unit) (Name := ℕ) (U := UR sig nD τ) (Lvl := ℕ) spec0 c (fun b => Gen.V0 m c b)
  hentry c := by
    rw [Pipeline.ownSems0_none]
    have hsplit := entry0 c (dat0 c) (fun b => Gen.V0 m c b) (h0.hA c) (h0.hq0 c) (h0.hq1 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 0 c).owed 0 = 0 from h0.howed c 0]
      icases HO with ⟨%W, HO⟩; iexists W; isplitr; · ipureintro; exact fun x _ => Or.inl ((h0.hrec c 0).symm ▸ Set.mem_univ x)
      iexact HO
    isplitl [Hp]; · iexact Hp
    iexact Hrest
  hin c := by
    refine BIBase.Entails.trans ?_ (h0.hin c)
    unfold Pipeline.ΦA
    iintro ⟨Hp, -, Hr⟩
    isplitl [Hr]; · iexact Hr
    iexact Hp
  hout c := by
    rw [Pipeline.ownSems0_none]
    refine BIBase.Entails.trans (h0.hout c) ?_
    unfold Pipeline.ΦA
    iintro ⟨Hr, Hp⟩
    isplitl [Hp]; · iexact Hp
    isplitr; · iempintro
    iexact Hr
  hexit c := by
    have hjoin := exit0 c (dat0 c) (fun b => Gen.V0 m c b) (fun b => Gen.V1 m (outsOf m dat0 dat1) c b) (h0.hA c) (h0.hq0 c) (h0.hq1 c)
      ((Function.update_self ..).trans (outsOf_v0 m dat0 dat1 c))
      (fun b hb => Gen.V1_of m (outsOf m dat0 dat1) c b fun h => hb (List.mem_singleton.mp h))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    rw [show (pdats dat0 dat1 0 c).owed (Fin.last _) = 0 from h0.howed c _]
    icases HO with ⟨%W, -, HO⟩; iexists W; iexact HO

set_option backward.isDefEq.respectTransparency.types false in
/-- Region 1 over the thread state: entered from every unscoped buffer at what the host stretches computed from
    region 0's result, left with the result array at what its write-backs leave. -/
def reg1 (h1 : Reg1Data (fun c b => Gen.V6 m (outs0 m dat0) c b) dat1) :
    Pipeline.RegionSeg (pcfgs (F := F)) Gen.adm (pdats dat0 dat1) () defs₀ Variants.none L lv 1 where
  win := Gen.winFacts₀1
  block_pos := Gen.block_pos1
  stage_whole := Gen.stage_whole1
  K := PEmpty
  osem k := k.elim
  ho := Pipeline.OwnSemFacts.none _
  hbody c := (h1.hbody c).loose
  hwaits := Pipeline.hwaits_of_owed_zero _ _ _ _ L lv 1 fun c t => h1.howed c t
  pre c := iprop(StableHlo.held (c : Thread nD τ) (Pipeline.ucRefs τ sig) (Gen.V6 m (outsOf m dat0 dat1) c) ∗ R c)
  post c := iprop((StableHlo.held (c : Thread nD τ) (Pipeline.ucRefs τ sig) (Gen.V7 m (outsOf m dat0 dat1) c) ∗ ∃ r, prngReg c r)
    ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (fun b => Gen.V6 m (outsOf m dat0 dat1) c b)
  hentry c := by
    rw [Pipeline.ownSems0_none]
    have hsplit := entry1 c (dat1 c) (fun b => Gen.V6 m (outsOf m dat0 dat1) c b) (h1.hA c) (h1.hq0 c) (h1.hq1 c) (h1.hq2 c) (h1.hq3 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 1 c).owed 0 = 0 from h1.howed c 0]
      icases HO with ⟨%W, HO⟩; iexists W; isplitr; · ipureintro; exact fun x _ => Or.inl ((h1.hrec c 0).symm ▸ Set.mem_univ x)
      iexact HO
    isplitl [Hp]; · iexact Hp
    iexact Hrest
  hin c := by
    refine BIBase.Entails.trans ?_ (h1.hin c)
    unfold Pipeline.ΦA
    iintro ⟨Hp, -, Hr⟩
    isplitl [Hr]; · iexact Hr
    iexact Hp
  hout c := by
    rw [Pipeline.ownSems0_none]
    refine BIBase.Entails.trans (h1.hout c) ?_
    unfold Pipeline.ΦA
    iintro ⟨Hr, Hp⟩
    isplitl [Hp]; · iexact Hp
    isplitr; · iempintro
    iexact Hr
  hexit c := by
    have hjoin := exit1 c (dat1 c) (fun b => Gen.V6 m (outsOf m dat0 dat1) c b) (fun b => Gen.V7 m (outsOf m dat0 dat1) c b)
      (h1.hA c) (h1.hq0 c) (h1.hq1 c) (h1.hq2 c) (h1.hq3 c)
      ((Function.update_self ..).trans (outsOf_v8 m dat0 dat1 c))
      (fun b hb => Gen.V7_of m (outsOf m dat0 dat1) c b fun h => hb (List.mem_singleton.mp h))
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    rw [show (pdats dat0 dat1 1 c).owed (Fin.last _) = 0 from h1.howed c _]
    icases HO with ⟨%W, -, HO⟩; iexists W; iexact HO

/-! ## The launch -/

-- the kit's implicit arguments are found by unifying its conclusion with this one, which takes unfolding plain
-- definitions in a metavariable's type
set_option backward.isDefEq.respectTransparency.types false in
/-- Every weakly fair execution of the entry function from memory m with zero counters terminates, and every final
    memory holds, on every core, the result array at what region 1's write-backs leave and the argument as launched. -/
theorem run_regions (ρ : Dev nD → PrngReg) (h0 : Reg0Data (fun c b => Gen.V0 m c b) dat0)
    (h1 : Reg1Data (fun c b => Gen.V6 m (outs0 m dat0) c b) dat1) :
    θ_run defs (onTc (τ := τ) (main (F := F))) ⟨m, fun _ => 0, ρ⟩ (fun r => ∀ c : Dev nD,
      r.2.mem ((c.tc : Thread nD τ).loc main_v8) = (dat1 c).arrAt 4 cfg1.N
      ∧ r.2.mem ((c.tc : Thread nD τ).loc main_arg0) = m ((c.tc : Thread nD τ).loc main_arg0)) := by
  refine Pipeline.θ_run_regions_kit_dev (pcfgs (F := F)) Gen.adm (pdats dat0 dat1) () Gen.cellOf_inj emb₁ defs₀ Variants.none L lv m ρ main
    (Gen.segs m (outsOf m dat0 dat1) Variants.none L lv E () (pdats dat0 dat1) (reg0 m dat0 dat1 h0) (reg1 m dat0 dat1 h1))
    (fun c Q => by
      rewrite [Gen.main_chain c, Pipeline.Seg.run_eq_chain,
        show (Gen.segs m (outsOf m dat0 dat1) Variants.none L lv E () (pdats dat0 dat1) (reg0 m dat0 dat1 h0) (reg1 m dat0 dat1 h1) c).map Pipeline.Seg.prog = [
          Prog.lift (.customCall (Pipeline.entry 0) ()),
          StableHlo.seq Gen.hostOps1,
          StableHlo.seq Gen.hostOps1_1,
          StableHlo.seq Gen.hostOps1_2,
          StableHlo.seq Gen.hostOps1_3,
          StableHlo.seq Gen.hostOps1_4,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V7 m (outsOf m dat0 dat1) c) ∗ ∃ r, prngReg c r))
    (hch := fun c => ⟨.rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V7 m (outsOf m dat0 dat1) c b)
    (hfin := fun c s' => by
      iintro ⟨⟨Hh, -⟩, HSI⟩
      unfold StableHlo.held
      imodintro
      iapply (pointsTo_read_all (Pipeline.ucRefs τ sig) (fun b => (((c : Thread nD τ)).1, b)) (Gen.V7 m (outsOf m dat0 dat1) c) s')
      isplitl [Hh] <;> iassumption)
    (hQ := fun s h c =>
      ⟨(h c _ (mem_uc main_v8 (by decide))).trans ((Function.update_self ..).trans (outsOf_v8 m dat0 dat1 c)),
       (h c _ (mem_uc main_arg0 (by decide))).trans (Gen.V7_main_arg0 m (outsOf m dat0 dat1) c)⟩)

end Cert.KernelIdeal.Hand

end
-- ==== Proof.KI.Runs0.lean ====
/-
  Region 0 (the row-sum pass): what its proofs share.

  The grid is 16 × 16, point t = 16·i + j for row block i and column block j. The body resets the
  512 × 1 accumulator when j = 0, adds the block's row sums to it at every point, and copies it to the
  output block when j = 15. So a point is in one of three cases: the first column block (reset, no
  output), a middle one (neither), the last (output). The output window is idle, and not written
  back, at the points of the first two cases.
-/
import proofs.«132871_j43860206027551_1_alg».proof.Proof.Gen.KernelIdeal.Launch
import proofs.«132871_j43860206027551_1_alg».proof.Proof.Gen.KernelIdeal.Skeleton
import proofs.«132871_j43860206027551_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

/-- "This is the first column block": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last column block": the accumulator is copied to the output block. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_2 : View sig .tc .vmem S512x1 .f32 := (Memref.whole cc0_stg2_0 : Memref sig .tc .vmem S512x1 .f32).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from point to point. -/
abbrev scM0 : Memref sig .tc .vmem S512x1 .f32 := Memref.whole cc0_scratch0
abbrev VS0 : View sig .tc .vmem S512x1 .f32 := scM0.view

/-- The scoped buffers that are neither a staging buffer of this region nor the accumulator (the other
    region's staging buffers), each whole at some contents: they ride along untouched. -/
def restS (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- What the region holds of the core's scoped state between points, the accumulator singled out. -/
theorem PhiA0_eq (c : Dev nD) :
    (Pipeline.ΦA spec0 c : sProp 𝕄)
      = iprop(iprop((∃ d, owns (c : Thread nD τ) scM0 fullShare d) ∗ restS c) ∗ (∃ r, prngReg c r)) := by
  unfold Pipeline.ΦA restS; rw [scopedRest0_eq]; simp only [scM0, owns_whole]; try rfl

end Cert.KernelIdeal.Hand

end
-- ==== Proof.KI.Run0A.lean ====
/-
  Region 0, the first column block: the accumulator is reset and then added to; the output block is left alone.
-/
import proofs.«132871_j43860206027551_1_alg».proof.Proof.KI.Runs0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case: the pieces its stores leave in the accumulator (the witness the run
    finds) with the triple on whole memrefs — the accumulator found at anything. -/
noncomputable def kernelRun0_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 x1 : Vec F S512x512 .f32) :
    { LS : List (View.Piece (Elt F) S512x1 .f32) //
      ∀ (xi : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__rowsum_kernel i arg2 harg2 arg3 harg3 arg4 harg4 arg5 harg5) K } := by
  refine ⟨?_, fun xi E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.KI.Run0B.lean ====
/-
  Region 0, a middle column block: the accumulator is added to, the output block is left alone.
-/
import proofs.«132871_j43860206027551_1_alg».proof.Proof.KI.Runs0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case: the pieces its stores leave (the witness the run finds) with the triple
    on whole memrefs — the two input blocks at their contents and handed back as they were. -/
noncomputable def kernelRun0_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 x1 : Vec F S512x512 .f32) (xs : Vec F S512x1 .f32) :
    { LS : List (View.Piece (Elt F) S512x1 .f32) //
      ∀ (xi : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__rowsum_kernel i arg2 harg2 arg3 harg3 arg4 harg4 arg5 harg5) K } := by
  refine ⟨?_, fun xi E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.KI.Run0C.lean ====
/-
  Region 0, the last column block: the accumulator is added to and then copied to the output block.
-/
import proofs.«132871_j43860206027551_1_alg».proof.Proof.KI.Runs0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case: the pieces its stores leave in the output block and in the accumulator
    (the witness the run finds) with the triple on whole memrefs — the output block found at anything. -/
noncomputable def kernelRun0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 x1 : Vec F S512x512 .f32) (xs : Vec F S512x1 .f32) :
    Σ' (L2 : List (View.Piece (Elt F) S512x1 .f32)), { LS : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__rowsum_kernel i arg2 harg2 arg3 harg3 arg4 harg4 arg5 harg5) K } := by
  refine ⟨?_, ?_, fun E K => ?run⟩
  case run =>
    simp only [cc0__rowsum_kernel_eq_skeleton]; unfold cc0__rowsum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

end Cert.KernelIdeal.Hand

end
-- ==== Proof.KI.Frame0.lean ====
/-
  Region 0 (the row-sum pass): what the accumulator and the output block hold after each point, the
  proof data over those contents, and the body obligation.

  After point t = 16·i + j the accumulator holds the sum, over the column blocks 0 … j, of the block's
  row sums of row block i: at j = 0 the body's result from a freshly reset accumulator, afterwards the
  body's result from what the point before left. At j = 15 the output block is that same vector.
-/
import proofs.«132871_j43860206027551_1_alg».proof.Proof.KI.Run0A
import proofs.«132871_j43860206027551_1_alg».proof.Proof.KI.Run0B
import proofs.«132871_j43860206027551_1_alg».proof.Proof.KI.Run0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- First column block: the pieces left in the accumulator cover it. -/
theorem scover0_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 x1 : Vec F S512x512 .f32) (y : S512x1.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S512x1.size (by sl_kernel_rfl) y
/-- What it leaves in the accumulator. -/
def sout0_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 x1 : Vec F S512x512 .f32) : Vec F S512x1 .f32 :=
  VS0.read (Elt F) (VS0.writes (Elt F) VS0.junk (kernelRun0_A c i arg2 harg2 arg3 harg3 arg4 harg4 arg5 harg5 hc0 hc1 x0 x1).1)

/-- A middle column block: the pieces left in the accumulator cover it. -/
theorem scover0_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 x1 : Vec F S512x512 .f32) (xs : Vec F S512x1 .f32) (y : S512x1.Idx) :
    ∃ pc ∈ (kernelRun0_B c i arg2 harg2 arg3 harg3 arg4 harg4 arg5 harg5 hc0 hc1 x0 x1 xs).1, y ∈ pc.1.set :=
  View.cover_of_tiledL (kernelRun0_B c i arg2 harg2 arg3 harg3 arg4 harg4 arg5 harg5 hc0 hc1 x0 x1 xs).1 S512x1.size (by sl_kernel_rfl) y
def sout0_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 x1 : Vec F S512x512 .f32) (xs : Vec F S512x1 .f32) : Vec F S512x1 .f32 :=
  VS0.read (Elt F) (VS0.writes (Elt F) VS0.junk (kernelRun0_B c i arg2 harg2 arg3 harg3 arg4 harg4 arg5 harg5 hc0 hc1 x0 x1 xs).1)

/-- The last column block: the pieces left in the output block, and in the accumulator, cover them. -/
theorem cover0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 x1 : Vec F S512x512 .f32) (xs : Vec F S512x1 .f32) (y : S512x1.Idx) :
    ∃ pc ∈ (kernelRun0_C c i arg2 harg2 arg3 harg3 arg4 harg4 arg5 harg5 hc0 hc1 x0 x1 xs).1, y ∈ pc.1.set :=
  View.cover_of_tiledL (kernelRun0_C c i arg2 harg2 arg3 harg3 arg4 harg4 arg5 harg5 hc0 hc1 x0 x1 xs).1 S512x1.size (by sl_kernel_rfl) y
def out0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 x1 : Vec F S512x512 .f32) (xs : Vec F S512x1 .f32) : Vec F S512x1 .f32 :=
  VO0_2.read (Elt F) (VO0_2.writes (Elt F) VO0_2.junk (kernelRun0_C c i arg2 harg2 arg3 harg3 arg4 harg4 arg5 harg5 hc0 hc1 x0 x1 xs).1)
theorem scover0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 x1 : Vec F S512x512 .f32) (xs : Vec F S512x1 .f32) (y : S512x1.Idx) :
    ∃ pc ∈ (kernelRun0_C c i arg2 harg2 arg3 harg3 arg4 harg4 arg5 harg5 hc0 hc1 x0 x1 xs).2.1, y ∈ pc.1.set :=
  View.cover_of_tiledL (kernelRun0_C c i arg2 harg2 arg3 harg3 arg4 harg4 arg5 harg5 hc0 hc1 x0 x1 xs).2.1 S512x1.size (by sl_kernel_rfl) y
def sout0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 x1 : Vec F S512x512 .f32) (xs : Vec F S512x1 .f32) : Vec F S512x1 .f32 :=
  VS0.read (Elt F) (VS0.writes (Elt F) VS0.junk (kernelRun0_C c i arg2 harg2 arg3 harg3 arg4 harg4 arg5 harg5 hc0 hc1 x0 x1 xs).2.1)

/-! ## What the output block and the accumulator hold after each point -/

/-- After position `n`: (the output block's buffer, the accumulator). Where the point stores nothing into the
    output block (every column block but the last) the first component is a placeholder nothing consults. -/
def outsAt0 (c : Dev nD) : (n : ℕ) → n < cfg0.N → Vec F S512x1 .f32 × Vec F S512x1 .f32
  | 0, hn => (sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : (n + 1) % 16 = 15 then
        False.elim (by omega)
      else
        (sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t), sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer it may use at
    anything; afterwards the accumulator at what the point before left, the rest at anything. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ restS c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2) ∗ restS c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2) ∗ restS c) ∗ (∃ r, prngReg c r)) := by
  cases n with
  | zero => exact absurd rfl hz
  | succ n => rfl

/-! ## The proof data -/

/-- Region 0's proof data on core `c`: the arrays as the region finds them; after the body each input's
    buffer at its block and the output's at `outsAt0`; the invariant `PhiS`; nothing owed. The two input
    windows read ONE array: each holds it at half of the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the closed forms say which case the
    point is in; the invariant hands the body the accumulator at what the point before left (at anything
    at the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · have h1 : ¬t.val % 16 = 15 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A; (try dsimp only)
    by_cases hz : t.val = 0
    · rw [PhiS_castSucc V c t, PhiS_zero V c _ _ hz, PhiA0_eq]
      iintro ⟨⟨⟨HS, HR⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, HR⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun h => h0 (by rw [h])
    by_cases h1 : t.val % 16 = 15
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS_castSucc V c t, PhiS_pos V c _ _ hz]
      iintro ⟨⟨⟨HS, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover0_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS_castSucc V c t, PhiS_pos V c _ _ hz]
      iintro ⟨⟨⟨HS, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover0_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the launch's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 256 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS, HR⟩, Hg⟩
  isplitl [HS HR]
  · isplitl [HS]
    · iexists _; iexact HS
    iexact HR
  iexact Hg

end Cert.KernelIdeal.Hand

end
-- ==== Proof.KI.Body1.lean ====
/-
  The normalising pass as a pipelined kernel: what its body does to the staging buffers, and the
  proof data of the pipeline, for any float instance.

  The pass runs on a 16 × 16 grid. At grid point (a, b) it is handed five staging buffers: block
  (a, b) of the array, block (b, a) of the same array (the transposed partner), rows 512·a … 512·a+511
  of the column vector of scales, columns 512·b … 512·b+511 of the row vector of scales, and the
  buffer of the output block (a, b). It loads the four inputs whole, loads the output buffer (the
  value is not used), and stores one 512 × 512 value — a pure function `k1_pay1` of the four loaded
  values and the grid point — over the whole output buffer. Nothing else is touched.

  So, at every point, each input buffer holds that window's block of its array as the pass found the
  array (whether or not the pipeline fetched it at this very point: an unfetched window's block index
  has not moved), and the output buffer ends at `out1_4`, the stored value. The two windows on the
  one array each hold it at half of the full share.
-/
import proofs.«132871_j43860206027551_1_alg».proof.Proof.Gen.KernelIdeal.Launch
import proofs.«132871_j43860206027551_1_alg».proof.Proof.Gen.KernelIdeal.Skeleton
import proofs.«132871_j43860206027551_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the pass is entered
variable (V : (c : Dev nD) → (b : Ref sig .tc) → Buf (Elt F) ((c : Thread nD τ).loc b))

/-! ## The windows' blocks -/

/-- Window `w`'s block at point `t`, read off its array as the pass finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of window 1, the transposed partner block of the same array. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of window 2, the rows of the column of scales: fetched only when the row block changes, and between
    two fetches the block index does not move. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same of window 3, the columns of the row of scales. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S512x512 := Rect.unit (s := S512x512) ![0, 0] S512x512.size inb_S512x512_S512x512_0_0
abbrev r1_1 : Rect S512x1 := Rect.unit (s := S512x1) ![0, 0] S512x1.size inb_S512x1_S512x1_0_0
abbrev r1_2 : Rect S1x512 := Rect.unit (s := S1x512) ![0, 0] S1x512.size inb_S1x512_S1x512_0_0

/-! ## What the body leaves in the output window's buffer -/

/-- The output buffer after the body at grid point `i`, from the four input blocks: the one store, over the whole
    buffer, of the body's value at what the four loads read. -/
def out1_4 (i : grid1.Coords) (x0 x1 : Vec F S512x512 .f32) (x2 : Vec F S512x1 .f32) (x3 : Vec F S1x512 .f32) : Vec F S512x512 .f32 :=
  View.canon [⟨r1_0, k1_pay1 i (View.ld x0 r1_0) (View.ld x1 r1_0) (View.ld x2 r1_1) (View.ld x3 r1_2)⟩]

/-- The store is of the whole buffer, so it covers it. -/
theorem cover1_4 (p0 : Vec F S512x512 .f32) (y : S512x512.Idx) :
    ∃ pc ∈ ([⟨r1_0, p0⟩] : List (View.Piece (Elt F) S512x512 .f32)), y ∈ pc.1.set :=
  View.cover_of_tiled [⟨r1_0, p0⟩] S512x512.size (by rfl) y

/-! ## The body's triple -/

set_option maxHeartbeats 1000000 in
/-- The body on whole staging buffers, the four inputs' at read contents `x0 … x3` and the output's at anything, runs
    to the continuation holding the inputs' as they were and the output's at `out1_4` of the inputs'. The load of the
    output buffer before the store reads a value nothing uses. -/
theorem sound_kernel1 (c : Dev nD) (E : Set ℕ) (i : grid1.Coords)
    (arg2 : Memref sig .tc .vmem S512x512 .f32) (harg2 : arg2.IsWhole) (arg3 : Memref sig .tc .vmem S512x512 .f32) (harg3 : arg3.IsWhole)
    (arg4 : Memref sig .tc .vmem S512x1 .f32) (harg4 : arg4.IsWhole) (arg5 : Memref sig .tc .vmem S1x512 .f32) (harg5 : arg5.IsWhole)
    (arg6 : Memref sig .tc .vmem S512x512 .f32) (harg6 : arg6.IsWhole)
    (x0 x1 : Vec F S512x512 .f32) (x2 : Vec F S512x1 .f32) (x3 : Vec F S1x512 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out1_4 i x0 x1 x2 x3)) -∗ K ⟨⟩))
      ⊢ wp frame (wpE (defs₀ (F := F)) Variants.none c none) E (cc1__norm_kernel i arg2 harg2 arg3 harg3 arg4 harg4 arg5 harg5 arg6 harg6) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the pass on core `c`: the arrays as the pass finds them (`V`); after the body at point `t` each
    input's buffer at its block and the output's at `out1_4` of the input blocks; the invariant the scoped rest and
    the generator register, untouched; nothing owed. Windows 0 and 1 sit on one array: each holds it at half of the
    full share; the others hold theirs whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (grid1.coords t) (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the contents at entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (grid1.coords t) (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so `sound_kernel1` applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole run of the entry function: the launch over the two passes' proof data.

  The first pass is entered at the launch memory; the second at what the host operations make of the
  first pass's output. Every weakly fair execution terminates, the result array holds what the second
  pass's write-backs leave, and the argument array is unchanged.
-/
import proofs.«132871_j43860206027551_1_alg».proof.Proof.KI.Launch
import proofs.«132871_j43860206027551_1_alg».proof.Proof.KI.Frame0
import proofs.«132871_j43860206027551_1_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents the first pass is entered at. -/
abbrev Vin0 : (c : Dev nD) → (b : Ref sig .tc) → Buf (Elt F) ((c : Thread nD τ).loc b) := fun c b => Gen.V0 m c b
/-- The first pass's proof data. -/
abbrev D0 : (c : Dev nD) → Dat τ (Elt F) Unit ℕ (UR sig nD τ) ℕ cfg0 c := fun c => dat0 (Vin0 m) c
/-- The contents the second pass is entered at. -/
abbrev Vin1 : (c : Dev nD) → (b : Ref sig .tc) → Buf (Elt F) ((c : Thread nD τ).loc b) := fun c b => Gen.V6 m (outs0 m (D0 m)) c b
/-- The second pass's proof data. -/
abbrev D1 : (c : Dev nD) → Dat τ (Elt F) Unit ℕ (UR sig nD τ) ℕ cfg1 c := fun c => dat1 (Vin1 m) c

theorem regData0 : Reg0Data (Vin0 m) (D0 m) where
  hA c w := A_eq0 (Vin0 m) c w
  hq0 c := by dsimp only [D0, dat0]
  hq1 c := by dsimp only [D0, dat0]
  howed c t := by dsimp only [D0, dat0]
  hrec c t := rfl
  hbody c := body_obligation0 (Vin0 m) c
  hin c := hin0 (Vin0 m) c
  hout c := hout0 (Vin0 m) c

theorem regData1 : Reg1Data (Vin1 m) (D1 m) where
  hA c w := A_eq1 (Vin1 m) c w
  hq0 c := by dsimp only [D1, dat1]
  hq1 c := by dsimp only [D1, dat1]
  hq2 c := by dsimp only [D1, dat1]
  hq3 c := by dsimp only [D1, dat1]
  howed c t := by dsimp only [D1, dat1]
  hrec c t := rfl
  hbody c := body_obligation1 (Vin1 m) c
  hin c := by rw [show (D1 m c).Φ 0 = Pipeline.ΦA spec1 c from rfl]
  hout c := by rw [show (D1 m c).Φ (Fin.last cfg1.N) = Pipeline.ΦA spec1 c from rfl]

/-- THE RUN: the result array at what the second pass's write-backs leave, the argument unchanged. -/
theorem run_hand (ρ : Dev nD → PrngReg) :
    θ_run defs (onTc (τ := τ) (main (F := F))) ⟨m, fun _ => 0, ρ⟩ (fun r => ∀ c : Dev nD,
      r.2.mem ((c.tc : Thread nD τ).loc main_v8) = (D1 m c).arrAt 4 cfg1.N
      ∧ r.2.mem ((c.tc : Thread nD τ).loc main_arg0) = m ((c.tc : Thread nD τ).loc main_arg0)) :=
  run_regions m (D0 m) (D1 m) ρ (regData0 m) (regData1 m)

/-- THE FRAME: every weakly fair execution terminates and the argument array ends as launched. -/
theorem frame_hand (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_hand m ρ)

end Cert.KernelIdeal.Hand

end
-- ==== Proof.KI.Host.lean ====
/-
  The host operations between the two passes.

  They take what the first pass left in its 8192 × 1 output, flatten it to a vector `s`, apply entrywise
  s ↦ where (|s^(-½)| = +∞) 0 (s^(-½))  (`hostScale`: the power, the test against +∞, the replacement by
  zero — kept as ONE function of `s`), and lay the result out as a column (8192 × 1) and as a row
  (1 × 8192) for the second pass. The argument array is not written.
-/
import proofs.«132871_j43860206027551_1_alg».proof.Proof.Gen.KernelIdeal.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The chain on the vector of row sums, as one function. -/
def hostScale (s : FVec F S8192 .f32) : FVec F S8192 .f32 :=
  select (cmpf .oeq (Host.absf (Host.powf s (broadcastInDim S8192 ![] bcast_S_S8192 (constant (F := F) S_ .f32 0xBF000000#32))))
      (broadcastInDim S8192 ![] bcast_S_S8192 (constant (F := F) S_ .f32 0x7F800000#32)))
    (broadcastInDim S8192 ![] bcast_S_S8192 (id (constant (F := F) S_ .f32 0x00000000#32)))
    (Host.powf s (broadcastInDim S8192 ![] bcast_S_S8192 (constant (F := F) S_ .f32 0xBF000000#32)))

variable (m : (ℓ : Loc nD τ sig) → Buf (Elt F) ℓ) (outs : Gen.Outs (F := F))

/-- The column handed to the second pass. -/
theorem host_v6 (c : Dev nD) :
    (Gen.V6 m outs c (Proc.devRef .tc main_v6) : S8192x1.Idx → Elt F .f32)
      = shapeCast S8192x1 (hostScale (shapeCast S8192 (Gen.V1 m outs c (Proc.devRef .tc main_v0) : S8192x1.Idx → Elt F .f32) shapeCasts_S8192x1_S8192)) shapeCasts_S8192_S8192x1 := by
  dsimp only [Gen.V6, Gen.V5, Gen.V4, Gen.V3, Gen.V2]
  simp only [Gen.hostOps1, Gen.hostOps1_1, Gen.hostOps1_2, Gen.hostOps1_3, Gen.hostOps1_4]
  after_results
  rfl

/-- The row handed to the second pass. -/
theorem host_v7 (c : Dev nD) :
    (Gen.V6 m outs c (Proc.devRef .tc main_v7) : S1x8192.Idx → Elt F .f32)
      = shapeCast S1x8192 (hostScale (shapeCast S8192 (Gen.V1 m outs c (Proc.devRef .tc main_v0) : S8192x1.Idx → Elt F .f32) shapeCasts_S8192x1_S8192)) shapeCasts_S8192_S1x8192 := by
  dsimp only [Gen.V6, Gen.V5, Gen.V4, Gen.V3, Gen.V2]
  simp only [Gen.hostOps1, Gen.hostOps1_1, Gen.hostOps1_2, Gen.hostOps1_3, Gen.hostOps1_4]
  after_results
  rfl

/-- The argument array reaches the second pass as launched. -/
theorem host_arg0 (c : Dev nD) : Gen.V6 m outs c main_arg0 = m ((c : Thread nD τ).loc main_arg0) :=
  (Gen.V6_of m outs c main_arg0 (by decide)).trans <| (Gen.V5_of m outs c main_arg0 (by decide)).trans <| (Gen.V4_of m outs c main_arg0 (by decide)).trans <| (Gen.V3_of m outs c main_arg0 (by decide)).trans <| (Gen.V2_of m outs c main_arg0 (by decide)).trans <| (Gen.V1_of m outs c main_arg0 (by decide)).trans rfl

end Cert.KernelIdeal.Hand

end
-- ==== Proof.KI.Value0a.lean ====
/-
  Region 0: what each case of the body leaves in the accumulator and in the output block, as the
  body's payloads.

  With `k0_pay2 i x0 x1 a` the body's one arithmetic result (the accumulator `a` plus the row sums of
  the block built from `x0` and the transpose of `x1`, with the self loop where the global row and
  column agree) and `k0_pay1` the reset value: the first column block leaves `k0_pay2 … k0_pay1`, every
  later one `k0_pay2 … (what the point before left)`, and the last one copies that same vector to the
  output block.
-/
import proofs.«132871_j43860206027551_1_alg».proof.Proof.KI.Frame0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hzCol : (![0, 0] : Fin S512x1.rank → Nat) = fun _ => 0 := by
  funext a; match a with | ⟨0, _⟩ => rfl | ⟨1, _⟩ => rfl
theorem hzBig : (![0, 0] : Fin S512x512.rank → Nat) = fun _ => 0 := by
  funext a; match a with | ⟨0, _⟩ => rfl | ⟨1, _⟩ => rfl

theorem sout0_A_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 x1 : Vec F S512x512 .f32) :
    sout0_A c i arg2 harg2 arg3 harg3 arg4 harg4 arg5 harg5 hc0 hc1 x0 x1 = k0_pay2 i x0 x1 (k0_pay1 (F := F)) := by
  unfold sout0_A
  rw [View.read_writes_eq_canon _ _ _ (scover0_A c i arg2 harg2 arg3 harg3 arg4 harg4 arg5 harg5 hc0 hc1 x0 x1)]
  unfold kernelRun0_A
  dsimp only
  rw [View.canon_cons_unit_zero (S := S512x1) hzCol]
  sl_unfold_run_names
  rw [View.readCov_unit_zero _ hzCol]
  simp only [View.readAt_eq_ld, harg2.read_unread, harg3.read_unread, harg5.read_unread, View.ld_unit_zero (S := S512x512) hzBig, View.ld_unit_zero (S := S512x1) hzCol]

theorem sout0_B_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 x1 : Vec F S512x512 .f32) (xs : Vec F S512x1 .f32) :
    sout0_B c i arg2 harg2 arg3 harg3 arg4 harg4 arg5 harg5 hc0 hc1 x0 x1 xs = k0_pay2 i x0 x1 xs := by
  unfold sout0_B
  rw [View.read_writes_eq_canon _ _ _ (scover0_B c i arg2 harg2 arg3 harg3 arg4 harg4 arg5 harg5 hc0 hc1 x0 x1 xs)]
  unfold kernelRun0_B
  dsimp only
  sl_unfold_run_names
  first
    | rw [View.canon_cons_unit_zero (S := S512x1) hzCol]
    | rw [View.canon_unit_zero (S := S512x1) hzCol]
  simp only [View.readAt_eq_ld, harg2.read_unread, harg3.read_unread, harg5.read_unread, View.ld_unit_zero (S := S512x512) hzBig, View.ld_unit_zero (S := S512x1) hzCol]

theorem sout0_C_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 x1 : Vec F S512x512 .f32) (xs : Vec F S512x1 .f32) :
    sout0_C c i arg2 harg2 arg3 harg3 arg4 harg4 arg5 harg5 hc0 hc1 x0 x1 xs = k0_pay2 i x0 x1 xs := by
  unfold sout0_C
  rw [View.read_writes_eq_canon _ _ _ (scover0_C c i arg2 harg2 arg3 harg3 arg4 harg4 arg5 harg5 hc0 hc1 x0 x1 xs)]
  unfold kernelRun0_C
  dsimp only
  sl_unfold_run_names
  first
    | rw [View.canon_cons_unit_zero (S := S512x1) hzCol]
    | rw [View.canon_unit_zero (S := S512x1) hzCol]
  simp only [View.readAt_eq_ld, harg2.read_unread, harg3.read_unread, harg5.read_unread, View.ld_unit_zero (S := S512x512) hzBig, View.ld_unit_zero (S := S512x1) hzCol]

theorem out0_C_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 x1 : Vec F S512x512 .f32) (xs : Vec F S512x1 .f32) :
    out0_C c i arg2 harg2 arg3 harg3 arg4 harg4 arg5 harg5 hc0 hc1 x0 x1 xs = k0_pay2 i x0 x1 xs := by
  unfold out0_C
  rw [View.read_writes_eq_canon _ _ _ (cover0_C c i arg2 harg2 arg3 harg3 arg4 harg4 arg5 harg5 hc0 hc1 x0 x1 xs)]
  unfold kernelRun0_C
  dsimp only
  rw [View.canon_unit_zero (S := S512x1) hzCol]
  sl_unfold_run_names
  first
    | rw [View.readCov_unit_zero _ hzCol]
    | skip
  simp only [View.readAt_eq_ld, harg2.read_unread, harg3.read_unread, harg5.read_unread, View.ld_unit_zero (S := S512x512) hzBig, View.ld_unit_zero (S := S512x1) hzCol]

end Cert.KernelIdeal.Hand

end
-- ==== Proof.Spec.lean ====
/-
  The function both programs compute, over the extended reals.

  For an 8192 × 8192 array `A`:
    badj A r c  = max ((A r c + A c r) · ½) 0 + [r = c]      (symmetrise, rectify, add the self loop)
    rowsum A r  = Σ_c badj A r c
    scale s     = where (|s^(-½)| = +∞) 0 (s^(-½))            (entrywise, the host's chain kept as one function)
    G A (r, c)  = (scale (rowsum A) r · badj A r c) · scale (rowsum A) c

  `accum f j` is the row sum taken sixteen columns-blocks of 512 at a time, each block's sum started at
  zero and added to the running total: the grouping a blocked reduction produces. `accum_eq_sum` says the
  grouping does not matter (addition on the extended reals is a commutative monoid; no finiteness is used).
-/
import Idealize.ShloMosaic.PureOps.Ideal
import Idealize.ShloMosaic.PureOps.Ideal.Laws
import Idealize.ShloMosaic.Lib.ValueIdx

noncomputable section

open scoped BigOperators

namespace NormAdj

open Idealize.ShloMosaic Idealize.ShloMosaic.ValueIdx

abbrev S0 : Shape := ⟨0, ![]⟩
abbrev SR : Shape := ⟨1, ![8192]⟩
abbrev SA : Shape := ⟨2, ![8192, 8192]⟩

theorem bc : S0.BroadcastsInDim SR (![] : Fin 0 → Fin SR.rank) := by decide

/-- One entry of the symmetrised, rectified array with the self loop added. -/
def badj (A : SA.Idx → EReal) (r c : Fin 8192) : EReal :=
  max ((A (ix2 r c) + A (ix2 c r)) * Ideal.ofBits .f32 0x3F000000#32) (Ideal.ofBits .f32 0x00000000#32)
    + (if r = c then (1 : EReal) else 0)

/-- A row's sum. -/
def rowsum (A : SA.Idx → EReal) (r : Fin 8192) : EReal := ∑ c : Fin 8192, badj A r c

/-- The row sums as a vector. -/
def rowsumV (A : SA.Idx → EReal) : FVec Ideal SR .f32 := fun i => rowsum A (i 0)

/-- The host's chain on the vector of row sums, kept as ONE function of that vector: the power −½, the test
    for an infinite result, the replacement of those by zero. Both programs apply exactly these operations. -/
def scale (s : FVec Ideal SR .f32) : FVec Ideal SR .f32 :=
  select (cmpf .oeq (Host.absf (F := Ideal) (Host.powf (F := Ideal) s (broadcastInDim SR ![] bc (constant (F := Ideal) S0 .f32 0xBF000000#32))))
      (broadcastInDim SR ![] bc (constant (F := Ideal) S0 .f32 0x7F800000#32)))
    (broadcastInDim SR ![] bc (id (constant (F := Ideal) S0 .f32 0x00000000#32)))
    (Host.powf (F := Ideal) s (broadcastInDim SR ![] bc (constant (F := Ideal) S0 .f32 0xBF000000#32)))

/-- The normalised array, entry by entry. -/
def G (A : SA.Idx → EReal) : SA.Idx → EReal := fun i =>
  (scale (rowsumV A) (ix1 (i 0)) * badj A (i 0) (i 1)) * scale (rowsumV A) (ix1 (i 1))

theorem G_apply (A : SA.Idx → EReal) (r c : Fin 8192) :
    G A (ix2 r c) = (scale (rowsumV A) (ix1 r) * badj A r c) * scale (rowsumV A) (ix1 c) := rfl

/-- Column `512 · j + k` of block `j`. -/
def col (j : Fin 16) (k : Fin 512) : Fin 8192 := ⟨512 * j.val + k.val, by omega⟩

/-- The running total after the first `j` blocks: each block's sum is started at zero and added on. -/
def accum (f : Fin 8192 → EReal) : (j : ℕ) → j ≤ 16 → EReal
  | 0, _ => 0
  | j + 1, h => accum f j (Nat.le_of_succ_le h) + (0 + ∑ k : Fin 512, f (col ⟨j, h⟩ k))

end NormAdj

end
-- ==== Proof.KI.Payload.lean ====
/-
  The values the two kernels store, read at an index, over the extended reals.

  Pass 1 stores, at row `p` of its 512 × 1 block, either zero (the reset) or the block's previous entry plus the
  sum over the 512 columns `k` of the block of
      max ((x0 (p, k) + x1 (k, p)) · ½) 0 + [512 · i₀ + p = 512 · i₁ + k],
  where `x0` is the block of the array at block position (i₀, i₁), `x1` the block at (i₁, i₀) (read transposed),
  and the bracket is the self loop: the row's number in the whole array equals the column's. Pass 2 stores, at
  (p, q), that same entry multiplied on the left by the row's scale and on the right by the column's scale.

  The pieces: a column broadcast `[a, 1] → [a, b]` and a keep-dimension cast `[a] → [a, 1]` read at an index;
  the sum along the lanes as a sum over `Fin 512`; the self-loop mask, whose 32-bit words `512 · i + p` never
  wrap because `512 · 15 + 511 < 2 ^ 32`.
-/
import proofs.«132871_j43860206027551_1_alg».proof.Proof.Gen.KernelIdeal.Skeleton
import proofs.«132871_j43860206027551_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- The sum along axis 1 of a 512 × 512 array, at row `p`, is the sum over `k : Fin 512` of the entries `(p, k)`
    (the accumulator word is the neutral one and does not enter the sum). -/
theorem rowSum_apply (src : FVec Ideal S512x512 .f32) (h : S512x512.Reduces [1] S512) (hφ : FKind.Formats .f32)
    (hacc : (0x00000000#32 : BitVec 32) = 0x00000000#32) (p : Fin 512) :
    multiReduction .add [1] S512 src 0x00000000#32 h hφ hacc (ix1 p) = ∑ k : Fin 512, src (ix2 p k) := by
  refine (Ideal.multiReduction_add_single src 0x00000000#32 h hφ hacc (ix1 p)).trans ?_
  refine Finset.sum_congr rfl fun k _ => congrArg src ?_
  funext d
  match d with
  | ⟨0, _⟩ => rfl
  | ⟨1, _⟩ => rfl

/-- The word computed for `512 · a + b` is the word of that natural number. -/
theorem ofNat_block (a b : ℕ) :
    IntOp.addi (Scalar.muli (BitVec.ofNat 32 a) 512#32) (BitVec.ofNat 32 b) = BitVec.ofNat 32 (512 * a + b) := by
  show BitVec.ofNat 32 a * BitVec.ofNat 32 512 + BitVec.ofNat 32 b = _
  rw [← BitVec.ofNat_mul, ← BitVec.ofNat_add, Nat.mul_comm]

/-- Two natural numbers below `2 ^ 32` have the same 32-bit word only if they are equal. -/
theorem ofNat_eq_iff (x y : ℕ) (hx : x < 2 ^ 32) (hy : y < 2 ^ 32) : BitVec.ofNat 32 x = BitVec.ofNat 32 y ↔ x = y := by
  constructor
  · intro h
    have := congrArg BitVec.toNat h
    rw [BitVec.toNat_ofNat, BitVec.toNat_ofNat, Nat.mod_eq_of_lt hx, Nat.mod_eq_of_lt hy] at this
    exact this
  · intro h; rw [h]

/-- The self-loop mask on words: comparing the words of `512 · a + p` and `512 · a' + k` for equality, widening the
    bit to 32 bits and reading it as a signed integer gives `1` when the two numbers are equal and `0` otherwise. -/
theorem mask_word (a a' p k : ℕ) (ha : a < 16) (ha' : a' < 16) (hp : p < 512) (hk : k < 512) :
    ((((IntOp.cmpi .eq (IntOp.addi (Scalar.muli (BitVec.ofNat 32 a) 512#32) (BitVec.ofNat 32 p))
        (IntOp.addi (Scalar.muli (BitVec.ofNat 32 a') 512#32) (BitVec.ofNat 32 k))).setWidth 32).toInt : ℝ) : EReal)
      = if 512 * a + p = 512 * a' + k then (1 : EReal) else 0 := by
  rw [ofNat_block, ofNat_block]
  by_cases h : 512 * a + p = 512 * a' + k
  · rw [if_pos h, h]
    have e : IntOp.cmpi .eq (BitVec.ofNat 32 (512 * a' + k)) (BitVec.ofNat 32 (512 * a' + k)) = 1#1 := by
      show BitVec.ofBool (_ == _) = 1#1
      rw [beq_self_eq_true]; rfl
    rw [e]
    norm_num
  · rw [if_neg h]
    have e : IntOp.cmpi .eq (BitVec.ofNat 32 (512 * a + p)) (BitVec.ofNat 32 (512 * a' + k)) = 0#1 := by
      show BitVec.ofBool (_ == _) = 0#1
      rw [beq_eq_false_iff_ne.2 (fun hh => h ((ofNat_eq_iff _ _ (by omega) (by omega)).1 hh))]; rfl
    rw [e]
    norm_num

/-- The self-loop mask of a block at block position `(i0, i1)`, read at `(p, k)`: one exactly when row
    `512 · i0 + p` of the whole array is column `512 · i1 + k`. -/
theorem mask_apply (i0 i1 : ℕ) (h0 : i0 < 16) (h1 : i1 < 16)
    (hI0 : S512x1.Iotas .tc 32 [0]) (hI1 : S1x512.Iotas .tc 32 [1])
    (hB0 : S512x1.Broadcasts S512x512) (hB1 : S1x512.Broadcasts S512x512) (hlt : 1 < 32) (p k : Fin 512) :
    (sitofp .f32 (extui 32 (cmpi .eq
        (broadcastTo S512x512 (addi (broadcast S512x1 (Scalar.muli (BitVec.ofNat 32 i0) 512#32)) (iota .tc S512x1 32 [0] hI0)) hB0)
        (broadcastTo S512x512 (addi (broadcast S1x512 (Scalar.muli (BitVec.ofNat 32 i1) 512#32)) (iota .tc S1x512 32 [1] hI1)) hB1))
        hlt) : FVec Ideal S512x512 .f32) (ix2 p k)
      = if 512 * i0 + p.val = 512 * i1 + k.val then (1 : EReal) else 0 := by
  have e0 : broadcastTo S512x512 (addi (broadcast S512x1 (Scalar.muli (BitVec.ofNat 32 i0) 512#32)) (iota .tc S512x1 32 [0] hI0)) hB0 (ix2 p k)
      = IntOp.addi (Scalar.muli (BitVec.ofNat 32 i0) 512#32) (BitVec.ofNat 32 p.val) :=
    (broadcastTo_a1_ab_apply _ hB0 p k).trans
      (congrArg (IntOp.addi (Scalar.muli (BitVec.ofNat 32 i0) 512#32)) (iota_single_apply .tc S512x1 32 0 hI0 (ix2 p (0 : Fin 1))))
  have e1 : broadcastTo S512x512 (addi (broadcast S1x512 (Scalar.muli (BitVec.ofNat 32 i1) 512#32)) (iota .tc S1x512 32 [1] hI1)) hB1 (ix2 p k)
      = IntOp.addi (Scalar.muli (BitVec.ofNat 32 i1) 512#32) (BitVec.ofNat 32 k.val) :=
    (broadcastTo_1b_ab_apply _ hB1 p k).trans
      (congrArg (IntOp.addi (Scalar.muli (BitVec.ofNat 32 i1) 512#32)) (iota_single_apply .tc S1x512 32 1 hI1 (ix2 (0 : Fin 1) k)))
  show ((((IntOp.cmpi .eq
      (broadcastTo S512x512 (addi (broadcast S512x1 (Scalar.muli (BitVec.ofNat 32 i0) 512#32)) (iota .tc S512x1 32 [0] hI0)) hB0 (ix2 p k))
      (broadcastTo S512x512 (addi (broadcast S1x512 (Scalar.muli (BitVec.ofNat 32 i1) 512#32)) (iota .tc S1x512 32 [1] hI1)) hB1 (ix2 p k))).setWidth 32).toInt : ℝ) : EReal) = _
  rw [e0, e1]
  exact mask_word i0 i1 p.val k.val h0 h1 p.isLt k.isLt

/-- Every index of a 512 × 1 block is `(p, 0)` for a row `p`. -/
theorem exists_ix2_col (y : S512x1.Idx) : ∃ p : Fin 512, y = ix2 p (0 : Fin 1) :=
  ⟨y 0, by
    funext d
    match d with
    | ⟨0, _⟩ => rfl
    | ⟨1, _⟩ => exact Subsingleton.elim (α := Fin 1) _ _⟩

/-- The reset of pass 1 stores zero everywhere. -/
theorem k0_pay1_apply (y : S512x1.Idx) : Gen.k0_pay1 (F := Ideal) y = 0 := by
  unfold Gen.k0_pay1
  rw [shapeCast_self]
  exact Ideal.ofBits_zero_f32

/-- The accumulation step of pass 1 at row `p`: the previous entry plus the block's row sum (started at zero). -/
theorem k0_pay2_apply (i : grid0.Coords) (x0 x1 : Vec Ideal S512x512 .f32) (a : Vec Ideal S512x1 .f32) (p : Fin 512) :
    Gen.k0_pay2 (F := Ideal) i x0 x1 a (ix2 p 0)
      = a (ix2 p 0) + (0 + ∑ k : Fin 512,
          (max ((x0 (ix2 p k) + x1 (ix2 k p)) * Ideal.ofBits .f32 0x3F000000#32) (Ideal.ofBits .f32 0x00000000#32)
            + (if 512 * (i 0).val + p.val = 512 * (i 1).val + k.val then (1 : EReal) else 0))) := by
  unfold Gen.k0_pay2
  rw [shapeCast_self]
  refine congrArg (fun z => a (ix2 p 0) + z) ?_
  refine (shapeCast_a_a1_apply _ _ p 0).trans ?_
  refine (rowSum_apply _ _ _ _ p).trans ?_
  rw [zero_add]
  refine Finset.sum_congr rfl fun k _ => ?_
  refine congrArg₂ (· + ·) ?_ (mask_apply (i 0).val (i 1).val (i 0).isLt (i 1).isLt _ _ _ _ _ p k)
  exact congrArg (fun z => max ((x0 (ix2 p k) + z) * Ideal.ofBits .f32 0x3F000000#32) (Ideal.ofBits .f32 0x00000000#32))
    (transpose_ix2_apply x1 _ p k)

/-- Pass 2 at `(p, q)`: the row's scale times the rectified symmetrised entry with its self loop, times the column's scale. -/
theorem k1_pay1_apply (i : grid1.Coords) (x0 x1 : Vec Ideal S512x512 .f32) (x2 : Vec Ideal S512x1 .f32)
    (x3 : Vec Ideal S1x512 .f32) (p q : Fin 512) :
    Gen.k1_pay1 (F := Ideal) i x0 x1 x2 x3 (ix2 p q)
      = (x2 (ix2 p 0) * (max ((x0 (ix2 p q) + x1 (ix2 q p)) * Ideal.ofBits .f32 0x3F000000#32) (Ideal.ofBits .f32 0x00000000#32)
            + (if 512 * (i 0).val + p.val = 512 * (i 1).val + q.val then (1 : EReal) else 0))) * x3 (ix2 0 q) := by
  unfold Gen.k1_pay1
  rw [shapeCast_self, shapeCast_self]
  refine congrArg₂ (· * ·) (congrArg₂ (· * ·) (broadcastTo_a1_ab_apply x2 _ p q) ?_) (broadcastTo_1b_ab_apply x3 _ p q)
  refine congrArg₂ (· + ·) ?_ (mask_apply (i 0).val (i 1).val (i 0).isLt (i 1).isLt _ _ _ _ _ p q)
  exact congrArg (fun z => max ((x0 (ix2 p q) + z) * Ideal.ofBits .f32 0x3F000000#32) (Ideal.ofBits .f32 0x00000000#32))
    (transpose_ix2_apply x1 _ p q)

end Cert.KernelIdeal.Pay

end
-- ==== Proof.SumLaw.lean ====
/-
  The blocked row sum is the plain row sum.

  `accum f 16` adds the sixteen block sums of 512 consecutive columns, each started at zero, to a running
  total started at zero. Addition on the extended reals is a commutative monoid, so the running total after
  `j` blocks is the double sum over the first `j` blocks, and the sixteen blocks of 512 columns enumerate the
  8192 columns exactly once (column `512 · j + k` for block `j`, offset `k`).
-/
import proofs.«132871_j43860206027551_1_alg».proof.Proof.Spec

noncomputable section

open scoped BigOperators

namespace NormAdj

/-- After `j` blocks the running total is the double sum over those blocks. -/
theorem accum_eq_blocks (f : Fin 8192 → EReal) (j : ℕ) (h : j ≤ 16) :
    accum f j h = ∑ jj : Fin j, ∑ k : Fin 512, f (col ⟨jj.val, lt_of_lt_of_le jj.isLt h⟩ k) := by
  induction j with
  | zero => simp [accum]
  | succ j ih =>
    rw [accum, ih, zero_add]
    exact (Fin.sum_univ_castSucc
      (fun jj : Fin (j + 1) => ∑ k : Fin 512, f (col ⟨jj.val, lt_of_lt_of_le jj.isLt h⟩ k))).symm

/-- Sixteen blocks of 512 columns are the 8192 columns. -/
theorem blocks_eq_sum (f : Fin 8192 → EReal) :
    ∑ jj : Fin 16, ∑ k : Fin 512, f (col jj k) = ∑ c : Fin 8192, f c := by
  rw [← Fintype.sum_prod_type']
  refine Fintype.sum_equiv (finProdFinEquiv.trans (finCongr (by norm_num))) _ _ (fun p => congrArg f (Fin.ext ?_))
  simp [col, finProdFinEquiv]
  omega

/-- The blocked sum is the sum. -/
theorem accum_eq_sum (f : Fin 8192 → EReal) : accum f 16 (le_refl 16) = ∑ c : Fin 8192, f c := by
  rw [accum_eq_blocks]
  exact blocks_eq_sum f

end NormAdj

end
-- ==== Proof.KI.Value0b.lean ====
/-
  Region 0: the array the row-sum pass leaves, at the extended reals.

  Point t = 16·i + j reads block (i, j) of the array through its first window and block (j, i) through
  its second, so with r = 512·i + p the body's sum over the block's columns k is Σ_k badj A r (512·j + k).
  By induction on the point the accumulator after t holds, at row p, the running total of those block
  sums over the column blocks 0 … j (`NormAdj.accum`); at j = 15 that is the whole row sum
  (`NormAdj.accum_eq_sum`), and it is what the point writes back to rows 512·i … 512·i + 511 of the
  8192 × 1 output. The sixteen writing points' blocks cover the output.
-/
import proofs.«132871_j43860206027551_1_alg».proof.Proof.KI.Value0a
import proofs.«132871_j43860206027551_1_alg».proof.Proof.KI.Payload
import proofs.«132871_j43860206027551_1_alg».proof.Proof.SumLaw

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## What a point leaves, case by case, for any float instance -/

section AnyF
variable (V : (c : Dev nD) → (b : Ref sig .tc) → Buf (Elt F) ((c : Thread nD τ).loc b))

theorem outsAt0_snd_first (c : Dev nD) (t : Fin cfg0.N) (h0 : t.val % 16 = 0) :
    (outsAt0 V c t.val t.isLt).2 = k0_pay2 (grid0.coords t) (iblk0 V c 0 t) (iblk0 V c 1 t) (k0_pay1 (F := F)) := by
  rw [outsAt0_A V c t h0 (by omega)]
  dsimp only
  rw [sout0_A_eq]

theorem outsAt0_snd_later (c : Dev nD) (t : Fin cfg0.N) (h0 : ¬t.val % 16 = 0) :
    (outsAt0 V c t.val t.isLt).2 = k0_pay2 (grid0.coords t) (iblk0 V c 0 t) (iblk0 V c 1 t)
      (outsAt0 V c (t.val - 1) (Nat.lt_of_le_of_lt (Nat.sub_le _ _) t.isLt)).2 := by
  by_cases h1 : t.val % 16 = 15
  · rw [outsAt0_C V c t h0 h1]
    dsimp only
    rw [sout0_C_eq]
  · rw [outsAt0_B V c t h0 h1]
    dsimp only
    rw [sout0_B_eq]

theorem outsAt0_fst_last (c : Dev nD) (t : Fin cfg0.N) (h1 : t.val % 16 = 15) :
    (outsAt0 V c t.val t.isLt).1 = (outsAt0 V c t.val t.isLt).2 := by
  rw [outsAt0_C V c t (by omega) h1]
  dsimp only
  rw [out0_C_eq, sout0_C_eq]

end AnyF

/-! ## The index maps and the grid coordinates, decided over the grid -/

theorem idx_facts0 : ∀ t : Fin cfg0.N,
    win0_0.index t (0 : Fin 2) = t.val / 16 ∧ win0_0.index t (1 : Fin 2) = t.val % 16
    ∧ win0_1.index t (0 : Fin 2) = t.val % 16 ∧ win0_1.index t (1 : Fin 2) = t.val / 16
    ∧ win0_2.index t (0 : Fin 2) = t.val / 16 ∧ win0_2.index t (1 : Fin 2) = 0
    ∧ ((grid0.coords t) 0).val = t.val / 16 ∧ ((grid0.coords t) 1).val = t.val % 16 :=
  (by decide +kernel : ∀ t : Fin grid0.N, _)

theorem lt256 (t : Fin cfg0.N) : t.val < 256 := lt_of_lt_of_eq t.isLt N_0

/-- The global row of row `p` of the point's row block, and the global column of column `k` of its column block. -/
def rowOf (t : Fin cfg0.N) (p : Fin 512) : Fin 8192 := ⟨512 * (t.val / 16) + p.val, by have := lt256 t; omega⟩
def jOf (t : Fin cfg0.N) : Fin 16 := ⟨t.val % 16, by omega⟩

variable (V : (c : Dev nD) → (b : Ref sig .tc) → Buf (Elt Ideal) ((c : Thread nD τ).loc b))

/-! ## The blocks the point reads -/

theorem iblk0_0_apply (c : Dev nD) (t : Fin cfg0.N) (p k : Fin 512) :
    iblk0 V c 0 t (ix2 p k) = V c main_arg0 (ix2 (rowOf t p) (NormAdj.col (jOf t) k)) := by
  obtain ⟨e0, e1, -⟩ := idx_facts0 t
  show V c main_arg0 (((cfg0.win 0).blk t).view.emb (ix2 p k)) = _
  refine congrArg _ ?_
  funext a; apply Fin.ext
  match a with
  | ⟨0, _⟩ => show win0_0.index t (0 : Fin 2) * 512 + 1 * p.val = 512 * (t.val / 16) + p.val; omega
  | ⟨1, _⟩ => show win0_0.index t (1 : Fin 2) * 512 + 1 * k.val = 512 * (t.val % 16) + k.val; omega

theorem iblk0_1_apply (c : Dev nD) (t : Fin cfg0.N) (p k : Fin 512) :
    iblk0 V c 1 t (ix2 k p) = V c main_arg0 (ix2 (NormAdj.col (jOf t) k) (rowOf t p)) := by
  obtain ⟨-, -, e2, e3, -⟩ := idx_facts0 t
  show V c main_arg0 (((cfg0.win 1).blk t).view.emb (ix2 k p)) = _
  refine congrArg _ ?_
  funext a; apply Fin.ext
  match a with
  | ⟨0, _⟩ => show win0_1.index t (0 : Fin 2) * 512 + 1 * k.val = 512 * (t.val % 16) + k.val; omega
  | ⟨1, _⟩ => show win0_1.index t (1 : Fin 2) * 512 + 1 * p.val = 512 * (t.val / 16) + p.val; omega

/-- The block's contribution to row `p`: the sum of the row's entries over the block's columns, for
    blocks `x0`, `x1` that hold the array's entries at (row, column) and at (column, row). -/
theorem block_sum (A : NormAdj.SA.Idx → EReal) (t : Fin cfg0.N) (p : Fin 512) (x0 x1 : Vec Ideal S512x512 .f32)
    (h0 : ∀ k : Fin 512, x0 (ix2 p k) = A (ix2 (rowOf t p) (NormAdj.col (jOf t) k)))
    (h1 : ∀ k : Fin 512, x1 (ix2 k p) = A (ix2 (NormAdj.col (jOf t) k) (rowOf t p))) :
    (∑ k : Fin 512, (max ((x0 (ix2 p k) + x1 (ix2 k p)) * Ideal.ofBits .f32 0x3F000000#32) (Ideal.ofBits .f32 0x00000000#32)
        + (if 512 * ((grid0.coords t) 0).val + p.val = 512 * ((grid0.coords t) 1).val + k.val then (1 : EReal) else 0)))
      = ∑ k : Fin 512, NormAdj.badj A (rowOf t p) (NormAdj.col (jOf t) k) := by
  obtain ⟨-, -, -, -, -, -, g0, g1⟩ := idx_facts0 t
  refine Finset.sum_congr rfl fun k _ => ?_
  rw [h0 k, h1 k, g0, g1]
  unfold NormAdj.badj
  refine congrArg _ (if_congr ?_ rfl rfl)
  constructor
  · intro h; exact Fin.ext h
  · intro h; exact congrArg Fin.val h

/-! ## The running total -/

theorem accum_congr (f : Fin 8192 → EReal) {j j' : ℕ} (e : j = j') (h : j ≤ 16) (h' : j' ≤ 16) :
    NormAdj.accum f j h = NormAdj.accum f j' h' := by subst e; rfl

theorem accum_step (f : Fin 8192 → EReal) (j : ℕ) (h : j + 1 ≤ 16) (jj : Fin 16) (hjj : jj.val = j) :
    NormAdj.accum f (j + 1) h = NormAdj.accum f j (Nat.le_of_succ_le h) + (0 + ∑ k : Fin 512, f (NormAdj.col jj k)) := by
  obtain ⟨v, hv⟩ := jj
  simp only at hjj
  subst hjj
  rfl

/-- After point `n` the accumulator holds, at row `p`, the running total of the row's entries over the
    column blocks `0 … n % 16`. -/
theorem acc_inv (c : Dev nD) : ∀ (n : ℕ) (hn : n < cfg0.N) (p : Fin 512),
    (outsAt0 V c n hn).2 (ix2 p 0)
      = NormAdj.accum (fun cc => NormAdj.badj (V c main_arg0) (rowOf ⟨n, hn⟩ p) cc) (n % 16 + 1) (by omega) := by
  intro n
  induction n with
  | zero =>
    intro hn p
    have e := outsAt0_snd_first V c ⟨0, hn⟩ (Nat.zero_mod _)
    rw [show (outsAt0 V c 0 hn).2 = _ from e, Pay.k0_pay2_apply, Pay.k0_pay1_apply, block_sum (V c main_arg0) _ p _ _ (iblk0_0_apply V c _ p) (iblk0_1_apply V c _ p)]
    rw [accum_congr _ (show 0 % 16 + 1 = 0 + 1 from rfl) _ (by omega), accum_step _ 0 (by omega) (jOf ⟨0, hn⟩) rfl]
    rfl
  | succ n ih =>
    intro hn p
    by_cases h0 : (n + 1) % 16 = 0
    · have e := outsAt0_snd_first V c ⟨n + 1, hn⟩ h0
      rw [show (outsAt0 V c (n + 1) hn).2 = _ from e, Pay.k0_pay2_apply, Pay.k0_pay1_apply, block_sum (V c main_arg0) _ p _ _ (iblk0_0_apply V c _ p) (iblk0_1_apply V c _ p)]
      rw [accum_congr _ (show (n + 1) % 16 + 1 = 0 + 1 by omega) _ (by omega), accum_step _ 0 (by omega) (jOf ⟨n + 1, hn⟩) h0]
      rfl
    · have e := outsAt0_snd_later V c ⟨n + 1, hn⟩ h0
      rw [show (outsAt0 V c (n + 1) hn).2 = _ from e, Pay.k0_pay2_apply, block_sum (V c main_arg0) _ p _ _ (iblk0_0_apply V c _ p) (iblk0_1_apply V c _ p)]
      have ihn := ih (Nat.lt_of_succ_lt hn) p
      have hrow : rowOf ⟨n, Nat.lt_of_succ_lt hn⟩ p = rowOf ⟨n + 1, hn⟩ p := by
        apply Fin.ext; show 512 * (n / 16) + p.val = 512 * ((n + 1) / 16) + p.val; omega
      rw [hrow] at ihn
      rw [show (outsAt0 V c ((⟨n + 1, hn⟩ : Fin cfg0.N).val - 1) _).2 (ix2 p 0) = (outsAt0 V c n (Nat.lt_of_succ_lt hn)).2 (ix2 p 0) from rfl, ihn]
      rw [accum_congr _ (show n % 16 + 1 = (n + 1) % 16 by omega) _ (by omega),
        accum_step _ ((n + 1) % 16) (by omega) (jOf ⟨n + 1, hn⟩) rfl]

/-- What the last column block writes back, at row `p`: the whole row sum. -/
theorem out_last (c : Dev nD) (t : Fin cfg0.N) (h1 : t.val % 16 = 15) (p : Fin 512) :
    (outsAt0 V c t.val t.isLt).1 (ix2 p 0) = NormAdj.rowsum (V c main_arg0) (rowOf t p) := by
  rw [outsAt0_fst_last V c t h1, acc_inv V c t.val t.isLt p,
    accum_congr _ (show t.val % 16 + 1 = 16 by omega) _ (le_refl 16), NormAdj.accum_eq_sum]
  rfl

/-! ## From the blocks to the array -/

theorem flushed0_eq (c : Dev nD) (t : Fin cfg0.N) (hf : (cfg0.win 2).flush t = true) :
    (dat0 V c).flushed 2 t = ((cfg0.win 2).blk t).view.read (Elt Ideal) (fun i : S8192x1.Idx => NormAdj.rowsum (V c main_arg0) (i 0)) := by
  have h1 : t.val % 16 = 15 := (flush0_2 t).mp hf
  obtain ⟨-, -, -, -, e4, e5, -⟩ := idx_facts0 t
  show (cfg0.win 2).cut (grid0.coords t) ((dat0 V c).after 2 t) = _
  rw [after0_2]
  funext j
  obtain ⟨p, rfl⟩ := Pay.exists_ix2_col j
  show (outsAt0 V c t.val t.isLt).1 (ix2 p 0) = NormAdj.rowsum (V c main_arg0) ((((cfg0.win 2).blk t).view.emb (ix2 p 0)) 0)
  rw [out_last V c t h1 p]
  refine congrArg _ (Fin.ext ?_)
  show 512 * (t.val / 16) + p.val = win0_2.index t (0 : Fin 2) * 512 + 1 * p.val
  omega

theorem mem_blk0_2 (t : Fin cfg0.N) (i : S8192x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v0).slice (win0_2.rect t)).set ↔ _
  rw [View.set_slice_whole, Rect.mem_set_unit]
  exact Iff.rfl

theorem cover0 (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 256 := N_0
  have hlt : 16 * ((i 0).val / 512) + 15 < cfg0.N := by omega
  refine ⟨⟨16 * ((i 0).val / 512) + 15, hlt⟩, (flush0_2 _).mpr (by show (16 * ((i 0).val / 512) + 15) % 16 = 15; omega), ?_⟩
  obtain ⟨-, -, -, -, e4, e5, -⟩ := idx_facts0 ⟨16 * ((i 0).val / 512) + 15, hlt⟩
  rw [mem_blk0_2]
  intro a
  match a with
  | ⟨0, _⟩ =>
    show win0_2.index ⟨16 * ((i 0).val / 512) + 15, hlt⟩ (0 : Fin 2) * 512 ≤ (i 0).val ∧ (i 0).val < win0_2.index ⟨16 * ((i 0).val / 512) + 15, hlt⟩ (0 : Fin 2) * 512 + 512
    rw [e4]; show (16 * ((i 0).val / 512) + 15) / 16 * 512 ≤ (i 0).val ∧ (i 0).val < (16 * ((i 0).val / 512) + 15) / 16 * 512 + 512; omega
  | ⟨1, _⟩ =>
    show win0_2.index ⟨16 * ((i 0).val / 512) + 15, hlt⟩ (1 : Fin 2) * 1 ≤ (i 1).val ∧ (i 1).val < win0_2.index ⟨16 * ((i 0).val / 512) + 15, hlt⟩ (1 : Fin 2) * 1 + 1
    rw [e5]; omega

/-- THE ARRAY region 0 leaves: the vector of row sums. -/
theorem final0 (c : Dev nD) :
    (dat0 (F := Ideal) V c).arrAt 2 cfg0.N = fun i : S8192x1.Idx => NormAdj.rowsum (V c main_arg0) (i 0) :=
  (dat0 V c).arrAt_eq_of_cover 2 _ (fun t hf => flushed0_eq V c t hf) cover0

end Cert.KernelIdeal.Hand

end
-- ==== Proof.KI.Value1.lean ====
/-
  The array the normalising pass leaves, as one function of the arrays it was entered with, over the
  extended reals.

  The pass visits the 16 × 16 grid of 512 × 512 output blocks once each; point t is block
  (t / 16, t % 16). Entry (p, q) of that block is entry (r, c) of the array for
  r = 512·(t / 16) + p and c = 512·(t % 16) + q. At that point the four input buffers hold

    block (t/16, t%16) of A        — its entry (p, q) is A (r, c),
    block (t%16, t/16) of A        — its entry (q, p) is A (c, r),
    rows 512·(t/16) … of the column u — its entry (p, 0) is u (r, 0),
    columns 512·(t%16) … of the row v — its entry (0, q) is v (0, c),

  and the value the body stores has, at (p, q),
    (u (r,0) · (max ((A (r,c) + A (c,r)) · ½) 0 + [512·(t/16)+p = 512·(t%16)+q])) · v (0,c);
  the test in brackets is r = c. So every point writes back its block of the one whole-array function
    (r, c) ↦ (u (r,0) · badj A r c) · v (0,c),
  and the 256 blocks cover the array (the point covering (r, c) is 16·(r/512) + c/512).
-/
import proofs.«132871_j43860206027551_1_alg».proof.Proof.KI.Body1
import proofs.«132871_j43860206027551_1_alg».proof.Proof.KI.Payload
import proofs.«132871_j43860206027551_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

/-! ## The function the pass computes -/

/-- Entry (r, c) of the result: the row's scale times the symmetrised, rectified entry with its self loop, times the
    column's scale. -/
def G1 (A : S8192x8192.Idx → EReal) (u : S8192x1.Idx → EReal) (v : S1x8192.Idx → EReal) : S8192x8192.Idx → EReal :=
  fun i => (u (ix2 (i 0) 0) * NormAdj.badj A (i 0) (i 1)) * v (ix2 0 (i 1))

/-! ## The grid -/

theorem hz1 : (![0, 0] : Fin 2 → Nat) = fun _ => 0 := funext fun a => by fin_cases a <;> rfl

/-- The grid has 256 points. -/
theorem t_lt1 (t : Fin cfg1.N) : t.val < 256 := lt_of_lt_of_eq t.isLt N_1

/-- The block each window is on at point `t`, and the grid coordinates of `t`: decided over the 256 points. -/
theorem idx_facts1 : ∀ t : Fin cfg1.N,
    win1_0.index t (0 : Fin 2) = t.val / 16 ∧ win1_0.index t (1 : Fin 2) = t.val % 16
    ∧ win1_1.index t (0 : Fin 2) = t.val % 16 ∧ win1_1.index t (1 : Fin 2) = t.val / 16
    ∧ win1_2.index t (0 : Fin 2) = t.val / 16 ∧ win1_2.index t (1 : Fin 2) = 0
    ∧ win1_3.index t (0 : Fin 2) = 0 ∧ win1_3.index t (1 : Fin 2) = t.val % 16
    ∧ win1_4.index t (0 : Fin 2) = t.val / 16 ∧ win1_4.index t (1 : Fin 2) = t.val % 16
    ∧ (grid1.coords t 0).val = t.val / 16 ∧ (grid1.coords t 1).val = t.val % 16 :=
  (by decide +kernel : ∀ t : Fin grid1.N, _)

/-- The array row of row `p` of the block at point `t`. -/
def rowAt1 (t : Fin cfg1.N) (p : Fin 512) : Fin 8192 := ⟨512 * (t.val / 16) + p.val, by have := t_lt1 t; omega⟩
/-- The array column of column `q` of the block at point `t`. -/
def colAt1 (t : Fin cfg1.N) (q : Fin 512) : Fin 8192 := ⟨512 * (t.val % 16) + q.val, by omega⟩

/-! ## Each input block read where the output's entry says -/

theorem iblk1_0_apply (c : Dev nD) (t : Fin cfg1.N) (x : S512x512.Idx) (k : S8192x8192.Idx)
    (hk0 : (k 0).val = 512 * (t.val / 16) + (x 0).val) (hk1 : (k 1).val = 512 * (t.val % 16) + (x 1).val) :
    (iblk1 V c 0 t : Vec Ideal S512x512 .f32) x = (V c main_arg0 : S8192x8192.Idx → EReal) k := by
  obtain ⟨e0, e1, -⟩ := idx_facts1 t
  unfold iblk1
  rw [View.read_apply]
  show V c main_arg0 _ = V c main_arg0 _
  refine congrArg _ (funext fun a => Fin.ext ?_)
  match a with
  | ⟨0, _⟩ => show win1_0.index t (0 : Fin 2) * 512 + 1 * (x 0).val = (k 0).val; rw [e0, hk0]; omega
  | ⟨1, _⟩ => show win1_0.index t (1 : Fin 2) * 512 + 1 * (x 1).val = (k 1).val; rw [e1, hk1]; omega

theorem iblk1_1_apply (c : Dev nD) (t : Fin cfg1.N) (x : S512x512.Idx) (k : S8192x8192.Idx)
    (hk0 : (k 0).val = 512 * (t.val % 16) + (x 0).val) (hk1 : (k 1).val = 512 * (t.val / 16) + (x 1).val) :
    (iblk1 V c 1 t : Vec Ideal S512x512 .f32) x = (V c main_arg0 : S8192x8192.Idx → EReal) k := by
  obtain ⟨-, -, e0, e1, -⟩ := idx_facts1 t
  unfold iblk1
  rw [View.read_apply]
  show V c main_arg0 _ = V c main_arg0 _
  refine congrArg _ (funext fun a => Fin.ext ?_)
  match a with
  | ⟨0, _⟩ => show win1_1.index t (0 : Fin 2) * 512 + 1 * (x 0).val = (k 0).val; rw [e0, hk0]; omega
  | ⟨1, _⟩ => show win1_1.index t (1 : Fin 2) * 512 + 1 * (x 1).val = (k 1).val; rw [e1, hk1]; omega

theorem iblk1_2_apply (c : Dev nD) (t : Fin cfg1.N) (x : S512x1.Idx) (k : S8192x1.Idx)
    (hk0 : (k 0).val = 512 * (t.val / 16) + (x 0).val) (hk1 : (k 1).val = (x 1).val) :
    (iblk1 V c 2 t : Vec Ideal S512x1 .f32) x = (V c main_v6 : S8192x1.Idx → EReal) k := by
  obtain ⟨-, -, -, -, e0, e1, -⟩ := idx_facts1 t
  unfold iblk1
  rw [View.read_apply]
  show V c main_v6 _ = V c main_v6 _
  refine congrArg _ (funext fun a => Fin.ext ?_)
  match a with
  | ⟨0, _⟩ => show win1_2.index t (0 : Fin 2) * 512 + 1 * (x 0).val = (k 0).val; rw [e0, hk0]; omega
  | ⟨1, _⟩ => show win1_2.index t (1 : Fin 2) * 1 + 1 * (x 1).val = (k 1).val; rw [e1, hk1]; omega

theorem iblk1_3_apply (c : Dev nD) (t : Fin cfg1.N) (x : S1x512.Idx) (k : S1x8192.Idx)
    (hk0 : (k 0).val = (x 0).val) (hk1 : (k 1).val = 512 * (t.val % 16) + (x 1).val) :
    (iblk1 V c 3 t : Vec Ideal S1x512 .f32) x = (V c main_v7 : S1x8192.Idx → EReal) k := by
  obtain ⟨-, -, -, -, -, -, e0, e1, -⟩ := idx_facts1 t
  unfold iblk1
  rw [View.read_apply]
  show V c main_v7 _ = V c main_v7 _
  refine congrArg _ (funext fun a => Fin.ext ?_)
  match a with
  | ⟨0, _⟩ => show win1_3.index t (0 : Fin 2) * 1 + 1 * (x 0).val = (k 0).val; rw [e0, hk0]; omega
  | ⟨1, _⟩ => show win1_3.index t (1 : Fin 2) * 512 + 1 * (x 1).val = (k 1).val; rw [e1, hk1]; omega

/-- Entry (p, q) of the output block at point `t` is entry (rowAt1 t p, colAt1 t q) of the array. -/
theorem emb1_4 (t : Fin cfg1.N) (p q : Fin 512) :
    ((cfg1.win 4).blk t).view.emb (ix2 p q : S512x512.Idx) = (ix2 (rowAt1 t p) (colAt1 t q) : S8192x8192.Idx) := by
  obtain ⟨-, -, -, -, -, -, -, -, e0, e1, -⟩ := idx_facts1 t
  refine funext fun a => Fin.ext ?_
  match a with
  | ⟨0, _⟩ => show win1_4.index t (0 : Fin 2) * 512 + 1 * p.val = 512 * (t.val / 16) + p.val; rw [e0]; omega
  | ⟨1, _⟩ => show win1_4.index t (1 : Fin 2) * 512 + 1 * q.val = 512 * (t.val % 16) + q.val; rw [e1]; omega

/-! ## One entry -/

/-- The stored value at one entry is the result at the array entry it lands on, once each loaded value is read as
    its array's entry and the self-loop test is read as "row = column". -/
theorem point1_eq (A : S8192x8192.Idx → EReal) (u : S8192x1.Idx → EReal) (v : S1x8192.Idx → EReal)
    (a0 a1 a2 a3 : EReal) (r c' : Fin 8192) (P : Prop) [Decidable P]
    (h0 : a0 = A (ix2 r c')) (h1 : a1 = A (ix2 c' r)) (h2 : a2 = u (ix2 r 0)) (h3 : a3 = v (ix2 0 c')) (hc : P ↔ r = c') :
    (a2 * (max ((a0 + a1) * Ideal.ofBits .f32 0x3F000000#32) (Ideal.ofBits .f32 0x00000000#32) + (if P then (1 : EReal) else 0))) * a3
      = G1 A u v (ix2 r c') := by
  subst h0 h1 h2 h3
  rw [if_congr hc rfl rfl]
  rfl

/-! ## What a point writes back -/

/-- What point `t` writes back is block `t` of `G1` of the arrays as the pass found them. -/
theorem flushed1_eq (c : Dev nD) (t : Fin cfg1.N) :
    (dat1 (F := Ideal) V c).flushed 4 t
      = ((cfg1.win 4).blk t).view.read (Elt Ideal) (G1 (V c main_arg0) (V c main_v6) (V c main_v7)) := by
  show (cfg1.win 4).cut (grid1.coords t) ((dat1 V c).after 4 t) = _
  rw [after1_4]
  unfold out1_4
  rw [View.canon_unit_zero hz1]
  simp only [View.ld_unit_zero (S := S512x512) hz1, View.ld_unit_zero (S := S512x1) hz1, View.ld_unit_zero (S := S1x512) hz1]
  funext j
  obtain ⟨p, q, rfl⟩ : ∃ (p q : Fin 512), j = ix2 p q := ⟨j 0, j 1, eq_ix2 j⟩
  obtain ⟨-, -, -, -, -, -, -, -, -, -, g0, g1⟩ := idx_facts1 t
  show Gen.k1_pay1 (F := Ideal) (grid1.coords t) (iblk1 V c 0 t) (iblk1 V c 1 t) (iblk1 V c 2 t) (iblk1 V c 3 t) (ix2 p q)
    = G1 (V c main_arg0) (V c main_v6) (V c main_v7) (((cfg1.win 4).blk t).view.emb (ix2 p q : S512x512.Idx))
  rw [emb1_4]
  refine (Pay.k1_pay1_apply (grid1.coords t) (iblk1 V c 0 t) (iblk1 V c 1 t) (iblk1 V c 2 t) (iblk1 V c 3 t) p q).trans ?_
  exact point1_eq (V c main_arg0) (V c main_v6) (V c main_v7) _ _ _ _ (rowAt1 t p) (colAt1 t q) _
    (iblk1_0_apply V c t (ix2 p q) (ix2 (rowAt1 t p) (colAt1 t q)) rfl rfl)
    (iblk1_1_apply V c t (ix2 q p) (ix2 (colAt1 t q) (rowAt1 t p)) rfl rfl)
    (iblk1_2_apply V c t (ix2 p 0) (ix2 (rowAt1 t p) 0) rfl rfl)
    (iblk1_3_apply V c t (ix2 0 q) (ix2 0 (colAt1 t q)) rfl rfl)
    (by rw [g0, g1, Fin.ext_iff]; exact Iff.rfl)

/-! ## The cover -/

/-- An index of the array is in point `t`'s block iff each coordinate is in the block's range on its axis. -/
theorem mem_blk1_4 (t : Fin cfg1.N) (i : S8192x8192.Idx) :
    i ∈ ((cfg1.win 4).blk t).view.set ↔ ∀ a : Fin 2, win1_4.index t a * S512x512.size a ≤ (i a).val ∧ (i a).val < win1_4.index t a * S512x512.size a + S512x512.size a := by
  show i ∈ ((View.whole main_v8).slice (win1_4.rect t)).set ↔ _
  rw [View.set_slice_whole, Rect.mem_set_unit]
  exact Iff.rfl

/-- Every entry (r, c) of the array is in the block of point 16·(r/512) + c/512, which is written back. -/
theorem covered1_4 (i : S8192x8192.Idx) : ∃ t : Fin cfg1.N, (cfg1.win 4).flush t = true ∧ i ∈ ((cfg1.win 4).blk t).view.set := by
  have h0 : (i 0).val < 8192 := (i 0).isLt
  have h1 : (i 1).val < 8192 := (i 1).isLt
  have hN : grid1.N = 256 := N_1
  obtain ⟨t, tv⟩ : ∃ t : Fin cfg1.N, t.val = 16 * ((i 0).val / 512) + (i 1).val / 512 :=
    ⟨⟨16 * ((i 0).val / 512) + (i 1).val / 512, by show _ < grid1.N; omega⟩, rfl⟩
  obtain ⟨-, -, -, -, -, -, -, -, e0, e1, -⟩ := idx_facts1 t
  refine ⟨t, flush1_4 t, ?_⟩
  rw [mem_blk1_4]
  intro a
  match a with
  | ⟨0, _⟩ =>
    show win1_4.index t (0 : Fin 2) * 512 ≤ (i 0).val ∧ (i 0).val < win1_4.index t (0 : Fin 2) * 512 + 512
    rw [e0, tv]; omega
  | ⟨1, _⟩ =>
    show win1_4.index t (1 : Fin 2) * 512 ≤ (i 1).val ∧ (i 1).val < win1_4.index t (1 : Fin 2) * 512 + 512
    rw [e1, tv]; omega

/-! ## The array after the pass -/

/-- The output array after the pass is `G1` of the arrays as the pass found them. -/
theorem final1_G (c : Dev nD) :
    (dat1 (F := Ideal) V c).arrAt 4 cfg1.N = G1 (V c main_arg0) (V c main_v6) (V c main_v7) :=
  (dat1 (F := Ideal) V c).arrAt_eq_of_cover 4 (G1 (V c main_arg0) (V c main_v6) (V c main_v7))
    (fun t _ => flushed1_eq V c t) covered1_4

/-- The same, entry by entry, with the three arrays the pass reads named: the output array after the pass holds,
    at (r, c), the row's scale times the symmetrised, rectified entry with its self loop, times the column's scale. -/
theorem final1 (c : Dev nD) (A : S8192x8192.Idx → EReal) (u : S8192x1.Idx → EReal) (v : S1x8192.Idx → EReal)
    (hA : (V c main_arg0 : S8192x8192.Idx → EReal) = A) (hu : (V c main_v6 : S8192x1.Idx → EReal) = u)
    (hv : (V c main_v7 : S1x8192.Idx → EReal) = v) :
    (dat1 (F := Ideal) V c).arrAt 4 cfg1.N
      = fun i : S8192x8192.Idx => (u (ix2 (i 0) 0) * NormAdj.badj A (i 0) (i 1)) * v (ix2 0 (i 1)) := by
  subst hA hu hv
  exact final1_G V c

end Cert.KernelIdeal.Hand

end
-- ==== Proof.KI.Final.lean ====
/-
  What the idealized kernel's result array holds: the normalised array `NormAdj.G` of the argument.

  The first pass leaves the vector of row sums (as an 8192 × 1 array); the host operations flatten it,
  apply the entrywise chain — at the extended reals exactly the specification's `NormAdj.scale` — and lay
  the result out as a column and as a row; the second pass multiplies entry (r, c) of the symmetrised,
  rectified array with the self loop by the column's entry r and the row's entry c. Entry by entry that
  is `G`.
-/
import proofs.«132871_j43860206027551_1_alg».proof.Proof.KI.Run
import proofs.«132871_j43860206027551_1_alg».proof.Proof.KI.Host
import proofs.«132871_j43860206027551_1_alg».proof.Proof.KI.Value0b
import proofs.«132871_j43860206027551_1_alg».proof.Proof.KI.Value1
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ)

/-- At the extended reals the host chain is the specification's. -/
theorem hostScale_eq (s : FVec Ideal S8192 .f32) : hostScale (F := Ideal) s = NormAdj.scale s := rfl

/-- What the first pass left, flattened, is the vector of row sums of the argument. -/
theorem rows_flat (c : Dev nD) :
    shapeCast S8192 (Gen.V1 m (outs0 m (D0 m)) c (Proc.devRef .tc main_v0) : S8192x1.Idx → Elt Ideal .f32) shapeCasts_S8192x1_S8192
      = NormAdj.rowsumV (m ((c : Thread nD τ).loc main_arg0)) := by
  have e : (Gen.V1 m (outs0 m (D0 m)) c (Proc.devRef .tc main_v0) : S8192x1.Idx → Elt Ideal .f32)
      = fun i : S8192x1.Idx => NormAdj.rowsum (m ((c : Thread nD τ).loc main_arg0)) (i 0) := by
    have e1 : Gen.V1 m (outs0 m (D0 m)) c (Proc.devRef .tc main_v0) = outs0 m (D0 m) 1 main_v0 c := by
      unfold Gen.V1; exact Function.update_self ..
    rw [e1, outs0_v0]
    exact final0 (Vin0 m) c
  rw [e]
  funext j
  obtain ⟨r, rfl⟩ : ∃ r : Fin 8192, j = ix1 r := ⟨j 0, eq_ix1 j⟩
  refine (shapeCast_apply _ _ (ix1 r) (ix2 r (0 : Fin 1)) ?_).trans rfl
  rw [Shape.rowMajor_val_two, Shape.rowMajor_val_one]
  show r.val * 1 + 0 = r.val
  omega

/-- THE VALUE: the result array is `G` of the argument array. -/
theorem kernel_value (c : Dev nD) :
    (D1 (F := Ideal) m c).arrAt 4 cfg1.N = NormAdj.G (m ((c : Thread nD τ).loc main_arg0)) := by
  have hA : (Vin1 m c main_arg0 : S8192x8192.Idx → EReal) = m ((c : Thread nD τ).loc main_arg0) := host_arg0 m _ c
  have hu : (Vin1 m c main_v6 : S8192x1.Idx → EReal)
      = fun i : S8192x1.Idx => NormAdj.scale (NormAdj.rowsumV (m ((c : Thread nD τ).loc main_arg0))) (ix1 (i 0)) := by
    refine (host_v6 m _ c).trans ?_
    rw [rows_flat, hostScale_eq]
    funext i
    obtain ⟨r, u, rfl⟩ : ∃ (r : Fin 8192) (u : Fin 1), i = ix2 r u := ⟨i 0, i 1, eq_ix2 i⟩
    exact Pay.shapeCast_a_a1_apply _ _ r u
  have hv : (Vin1 m c main_v7 : S1x8192.Idx → EReal)
      = fun i : S1x8192.Idx => NormAdj.scale (NormAdj.rowsumV (m ((c : Thread nD τ).loc main_arg0))) (ix1 (i 1)) := by
    refine (host_v7 m _ c).trans ?_
    rw [rows_flat, hostScale_eq]
    funext i
    obtain ⟨u, r, rfl⟩ : ∃ (u : Fin 1) (r : Fin 8192), i = ix2 u r := ⟨i 0, i 1, eq_ix2 i⟩
    exact shapeCast_a_1a_apply _ _ u r
  refine (final1 (Vin1 m) c _ _ _ hA hu hv).trans ?_
  funext i
  rfl

/-- The run, read: the result array at `G` of the argument, the argument unchanged. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8) = NormAdj.G (m ((c.tc : Thread nD τ).loc main_arg0))
      ∧ r.2.mem ((c.tc : Thread nD τ).loc main_arg0) = m ((c.tc : Thread nD τ).loc main_arg0)) :=
  (θ_run defs _ _).mono (fun _ h c => ⟨(h c).1.trans (kernel_value m c), (h c).2⟩) (run_hand m ρ)

end Cert.KernelIdeal.Hand

end
-- ==== Proof.RefSide.lean ====
/-
  The reference program computes the specification.

  Read one operation at a time, the reference's result at row `r`, column `c` is
    (s r · b r c) · s c,   b r c = max ((A r c + A c r) · ½) 0 + [r = c],   s = scale (fun r => Σ_c b r c):
  the transpose reads `A` at `(c, r)`; the self-loop mask compares the row number with the column number as
  32-bit words, which for numbers below 8192 is the comparison of the numbers; the reduction over axis 1 from
  a zero initial value is the row sum; the power, the test for an infinite result and the replacement by zero
  are, operation for operation, the specification's `scale` applied to the vector of row sums; the two
  broadcasts read that vector at the row and at the column.
-/
import proofs.«132871_j43860206027551_1_alg».proof.Defs
import proofs.«132871_j43860206027551_1_alg».proof.Proof.Gen.Pre_finite_inputs
import proofs.«132871_j43860206027551_1_alg».proof.Proof.Gen.ReferenceIdeal.Run
import proofs.«132871_j43860206027551_1_alg».proof.Proof.Gen.ReferenceIdeal.Read
import proofs.«132871_j43860206027551_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- Two numbers below 8192 are equal as 32-bit words exactly when they are equal. -/
theorem ofNat32_inj (r c : Fin 8192) : BitVec.ofNat 32 r.val = BitVec.ofNat 32 c.val ↔ r = c := by
  constructor
  · intro h
    have h' := congrArg BitVec.toNat h
    rw [BitVec.toNat_ofNat, BitVec.toNat_ofNat, Nat.mod_eq_of_lt (by omega), Nat.mod_eq_of_lt (by omega)] at h'
    exact Fin.ext h'
  · rintro rfl; rfl

/-- The self-loop mask at row `r`, column `c`: one on the diagonal, zero off it. -/
theorem mask_apply (r c : Fin 8192) :
    val_main_v10 (F := Ideal) (ix2 r c) = (if r = c then (1 : EReal) else 0) := by
  rw [val_main_v10_apply, val_main_v9_apply, val_main_v8_apply, val_main_v5_apply, val_main_v7_apply,
    val_main_c_apply, val_main_v6_apply]
  show (((IntOp.cmpi .eq (IntOp.addi (BitVec.ofNat 32 r.val) 0#32) (BitVec.ofNat 32 c.val)).toNat : ℝ) : EReal) = _
  have h0 : IntOp.addi (BitVec.ofNat 32 r.val) 0#32 = BitVec.ofNat 32 r.val := by
    simp [IntOp.addi]
  rw [h0]
  by_cases h : r = c
  · subst h
    simp [IntOp.cmpi]
  · have hne : BitVec.ofNat 32 r.val ≠ BitVec.ofNat 32 c.val := fun e => h ((ofNat32_inj r c).mp e)
    simp [IntOp.cmpi, hne, h]

/-- The symmetrised, rectified array with the self loop, at row `r`, column `c`. -/
theorem v11_apply (A : FVec Ideal S8192x8192 .f32) (r c : Fin 8192) :
    val_main_v11 (F := Ideal) A (ix2 r c) = NormAdj.badj A r c := by
  have e0 : idx_main_v0 (ix2 r c) = ix2 c r :=
    funext fun a => Fin.ext (by match a with | ⟨0, _⟩ => rfl | ⟨1, _⟩ => rfl)
  rw [val_main_v11_apply, mask_apply, val_main_v4_apply, val_main_v3_apply, val_main_v1_apply, val_main_v0_apply,
    val_main_v2_apply, val_main_cst_apply, val_main_call0_v0_apply, val_main_call0_cst_apply, e0]
  rfl

/-- The reduction over axis 1 is the vector of row sums. -/
theorem v12_eq (A : FVec Ideal S8192x8192 .f32) : val_main_v12 (F := Ideal) A = NormAdj.rowsumV A := by
  funext i
  obtain ⟨r, rfl⟩ : ∃ r : Fin 8192, i = ix1 r := ⟨i 0, eq_ix1 i⟩
  have e (k : Fin 8192) : idx_main_v12 (ix1 r) k = ix2 r k :=
    funext fun a => Fin.ext (by match a with | ⟨0, _⟩ => rfl | ⟨1, _⟩ => rfl)
  rw [val_main_v12_apply, val_main_cst_0_apply]
  simp only [e, v11_apply]
  show Ideal.ofBits .f32 0x00000000#32 + _ = _
  rw [Ideal.ofBits_zero_f32, zero_add]
  rfl

/-- The power, the test for an infinite result and the replacement by zero are the specification's chain on the
    vector of row sums, operation for operation. -/
theorem v16_eq (A : FVec Ideal S8192x8192 .f32) :
    val_main_v16 (F := Ideal) A = NormAdj.scale (val_main_v12 (F := Ideal) A) := rfl

/-- The reference's last stage is the specification. -/
theorem stage_eq (A : FVec Ideal S8192x8192 .f32) : val_main_v22 (F := Ideal) A = NormAdj.G A := by
  funext i
  obtain ⟨r, c, rfl⟩ : ∃ r c : Fin 8192, i = ix2 r c := ⟨i 0, i 1, eq_ix2 i⟩
  have er : idx_main_v17 (idx_main_v18 (ix2 r c)) = ix1 r :=
    funext fun a => Fin.ext (by match a with | ⟨0, _⟩ => rfl)
  have ec : idx_main_v20 (idx_main_v21 (ix2 r c)) = ix1 c :=
    funext fun a => Fin.ext (by match a with | ⟨0, _⟩ => rfl)
  rw [val_main_v22_apply, val_main_v19_apply, val_main_v18_apply, val_main_v17_apply, val_main_v21_apply,
    val_main_v20_apply, v11_apply, er, ec, v16_eq, v12_eq, NormAdj.G_apply]
  rfl

/-- The reference run's result term, at the ideal instance, is the specification of the argument array. -/
theorem result_eq (A : FVec Ideal S8192x8192 .f32) :
    mulf (mulf (broadcastInDim S8192x8192 ![0, 1] bcast_S8192x1_S8192x8192_0_1 (broadcastInDim S8192x1 ![0] bcast_S8192_S8192x1_0 (select (cmpf .oeq (Host.absf (Host.powf (Host.reduceAdd (addf (maximumf (mulf (addf A (transpose S8192x8192 [1, 0] A transposes_S8192x8192_S8192x8192_1_0)) (broadcastInDim S8192x8192 ![] bcast_S_S8192x8192 (constant S_ .f32 0x3F000000#32))) (broadcastInDim S8192x8192 ![] bcast_S_S8192x8192 (constant S_ .f32 0x00000000#32))) (uitofp .f32 (cmpi .eq (addi (iotaInDim S8192x8192 32 0) (broadcastInDim S8192x8192 ![] bcast_S_S8192x8192 (constantI S_ 32 0#32))) (iotaInDim S8192x8192 32 1)))) (constant S_ .f32 0x00000000#32) reducesTo_S8192x8192_S8192_d1 h_S_) (broadcastInDim S8192 ![] bcast_S_S8192 (constant S_ .f32 0xBF000000#32)))) (broadcastInDim S8192 ![] bcast_S_S8192 (constant S_ .f32 0x7F800000#32))) (broadcastInDim S8192 ![] bcast_S_S8192 (id (constant S_ .f32 0x00000000#32))) (Host.powf (Host.reduceAdd (addf (maximumf (mulf (addf A (transpose S8192x8192 [1, 0] A transposes_S8192x8192_S8192x8192_1_0)) (broadcastInDim S8192x8192 ![] bcast_S_S8192x8192 (constant S_ .f32 0x3F000000#32))) (broadcastInDim S8192x8192 ![] bcast_S_S8192x8192 (constant S_ .f32 0x00000000#32))) (uitofp .f32 (cmpi .eq (addi (iotaInDim S8192x8192 32 0) (broadcastInDim S8192x8192 ![] bcast_S_S8192x8192 (constantI S_ 32 0#32))) (iotaInDim S8192x8192 32 1)))) (constant S_ .f32 0x00000000#32) reducesTo_S8192x8192_S8192_d1 h_S_) (broadcastInDim S8192 ![] bcast_S_S8192 (constant S_ .f32 0xBF000000#32)))))) (addf (maximumf (mulf (addf A (transpose S8192x8192 [1, 0] A transposes_S8192x8192_S8192x8192_1_0)) (broadcastInDim S8192x8192 ![] bcast_S_S8192x8192 (constant S_ .f32 0x3F000000#32))) (broadcastInDim S8192x8192 ![] bcast_S_S8192x8192 (constant S_ .f32 0x00000000#32))) (uitofp .f32 (cmpi .eq (addi (iotaInDim S8192x8192 32 0) (broadcastInDim S8192x8192 ![] bcast_S_S8192x8192 (constantI S_ 32 0#32))) (iotaInDim S8192x8192 32 1))))) (broadcastInDim S8192x8192 ![0, 1] bcast_S1x8192_S8192x8192_0_1 (broadcastInDim S1x8192 ![1] bcast_S8192_S1x8192_1 (select (cmpf .oeq (Host.absf (Host.powf (Host.reduceAdd (addf (maximumf (mulf (addf A (transpose S8192x8192 [1, 0] A transposes_S8192x8192_S8192x8192_1_0)) (broadcastInDim S8192x8192 ![] bcast_S_S8192x8192 (constant S_ .f32 0x3F000000#32))) (broadcastInDim S8192x8192 ![] bcast_S_S8192x8192 (constant S_ .f32 0x00000000#32))) (uitofp .f32 (cmpi .eq (addi (iotaInDim S8192x8192 32 0) (broadcastInDim S8192x8192 ![] bcast_S_S8192x8192 (constantI S_ 32 0#32))) (iotaInDim S8192x8192 32 1)))) (constant S_ .f32 0x00000000#32) reducesTo_S8192x8192_S8192_d1 h_S_) (broadcastInDim S8192 ![] bcast_S_S8192 (constant S_ .f32 0xBF000000#32)))) (broadcastInDim S8192 ![] bcast_S_S8192 (constant S_ .f32 0x7F800000#32))) (broadcastInDim S8192 ![] bcast_S_S8192 (id (constant S_ .f32 0x00000000#32))) (Host.powf (Host.reduceAdd (addf (maximumf (mulf (addf A (transpose S8192x8192 [1, 0] A transposes_S8192x8192_S8192x8192_1_0)) (broadcastInDim S8192x8192 ![] bcast_S_S8192x8192 (constant S_ .f32 0x3F000000#32))) (broadcastInDim S8192x8192 ![] bcast_S_S8192x8192 (constant S_ .f32 0x00000000#32))) (uitofp .f32 (cmpi .eq (addi (iotaInDim S8192x8192 32 0) (broadcastInDim S8192x8192 ![] bcast_S_S8192x8192 (constantI S_ 32 0#32))) (iotaInDim S8192x8192 32 1)))) (constant S_ .f32 0x00000000#32) reducesTo_S8192x8192_S8192_d1 h_S_) (broadcastInDim S8192 ![] bcast_S_S8192 (constant S_ .f32 0xBF000000#32))))))
      = NormAdj.G A :=
  (val_main_v22_eq (F := Ideal) A).trans (stage_eq A)

/-- The reference runs and leaves its argument array unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's run, with its result read as the specification of the argument array. -/
theorem run_spec (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v22) = NormAdj.G (m ((c.tc : Thread nD τ).loc main_arg0))
      ∧ r.2.mem ((c.tc : Thread nD τ).loc main_arg0) = m ((c.tc : Thread nD τ).loc main_arg0) :=
  (θ_run Cert.ReferenceIdeal.defs _ _).mono (fun _ h c => ⟨(h c).1.trans (result_eq _), (h c).2⟩)
    (Cert.ReferenceIdeal.Value.run (F := Ideal) m ρ)

end Cert.ReferenceIdeal.RefValue

end
-- ==== Proof.lean ====
/-
  The kernel normalises a symmetrised adjacency array: with
      badj(r, c) = max((A[r, c] + A[c, r]) · ½, 0) + [r = c],     s[r] = Σ_c badj(r, c),
      ρ = where(|s^(-½)| = +∞, 0, s^(-½)),
  the result is  out[r, c] = (ρ[r] · badj(r, c)) · ρ[c]  (`NormAdj.G`).

  The kernel computes it in two passes over 512 × 512 blocks on a 16 × 16 grid. The first pass reads
  block (i, j) and block (j, i) of A, forms the block of badj, and adds its row sums into a 512 × 1
  accumulator that is reset at j = 0 and written out at j = 15; the row sum of a row is therefore taken
  sixteen column blocks at a time, which on the extended reals — a commutative monoid under addition — is
  the row sum (`NormAdj.accum_eq_sum`). Host operations then apply ρ entrywise and lay it out as a column
  and a row; the second pass forms the block of badj again and scales it. The reference does the same
  with whole-array operations. No finiteness of the input is used for the values: both sides are the same
  expression in +, ·, max and the one shared chain ρ, which is never opened.

  The three frame claims (every weakly fair execution terminates without a fault and leaves the argument
  array unchanged) hold for both printed forms of the kernel by one argument, stated for any float
  instance: each pass's body obligation (three cases for the first pass: reset, accumulate, write out),
  and the composition of the two passes with the host operations between them, the one argument array
  being read through two windows of each pass at half of its full share each. The reference's frame is
  its run with the result dropped. The idealisation rewrote nothing, so `preserves` is trivial.
-/
import proofs.«132871_j43860206027551_1_alg».proof.Defs
import proofs.«132871_j43860206027551_1_alg».proof.Proof.Gen.Kernel
import proofs.«132871_j43860206027551_1_alg».proof.Proof.Gen.KernelIdeal
import proofs.«132871_j43860206027551_1_alg».proof.Proof.Gen.ReferenceIdeal
import proofs.«132871_j43860206027551_1_alg».proof.Proof.Gen.Pre_finite_inputs
import proofs.«132871_j43860206027551_1_alg».proof.Proof.K.Run
import proofs.«132871_j43860206027551_1_alg».proof.Proof.KI.Final
import proofs.«132871_j43860206027551_1_alg».proof.Proof.RefSide
import Idealize.ShloMosaic.Adequacy
import Idealize.ShloMosaic.Init

noncomputable section

namespace Cert.Proof

open Idealize.ShloMosaic Idealize.SL.Sem

/-- The word-level kernel runs to the end and leaves its argument as launched. -/
theorem frame_k : Cert.frame_Kernel := fun m ρ _ => Cert.Kernel.Hand.frame_hand (F := Bits) m ρ

/-- So does the idealized kernel. -/
theorem frame_ki : Cert.frame_KernelIdeal := fun m ρ _ => Cert.KernelIdeal.Hand.frame_hand (F := Ideal) m ρ

/-- The idealized kernel's result and the reference's are the normalised array `NormAdj.G` of arguments
    that agree. -/
theorem algebraic : Cert.algebraic_KernelIdeal_ReferenceIdeal := by
  intro m ρ m' ρ' _ hagree
  refine ⟨fun c => NormAdj.G (m ((c.tc : Thread Cert.KernelIdeal.nD Cert.KernelIdeal.τ).loc Cert.KernelIdeal.main_arg0)),
    Cert.KernelIdeal.Hand.run_value m ρ, ?_⟩
  refine (θ_run Cert.ReferenceIdeal.defs _ _).mono (fun _ h c => ⟨(h c).1.trans ?_, (h c).2⟩)
    (Cert.ReferenceIdeal.RefValue.run_spec m' ρ')
  rw [hagree c]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
